-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x2 : Shape := ⟨2, ![800000, 2]⟩
abbrev S800000x64 : Shape := ⟨2, ![800000, 64]⟩
abbrev S192x64 : Shape := ⟨2, ![192, 64]⟩
abbrev S64 : Shape := ⟨1, ![64]⟩
abbrev S64x64 : Shape := ⟨2, ![64, 64]⟩
abbrev S128x64 : Shape := ⟨2, ![128, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_arg8 : FVec F S64 .f32) (main_arg9 : FVec F S64x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S128x64 .f32) (main_arg8 : FVec F S64 .f32) (main_arg9 : FVec F S64x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S800000x2 32) (main_arg2 : FVec F S800000x64 .f32) (main_arg3 : FVec F S192x64 .f32) (main_arg4 : FVec F S64 .f32) (main_arg5 : FVec F S64x64 .f32) (main_arg6 : FVec F S64 .f32) (main_arg7 : FVec F S128x64 .f32) (main_arg8 : FVec F S64 .f32) (main_arg9 : FVec F S64x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x64 .f32 := Host.absf main_arg3
  let main_cst_2 : FVec F S_ .f32 := constant S_ .f32 0x7F800000#32
  let main_v10 : FVec F S192x64 .f32 := broadcastInDim S192x64 ![] bcast_S_S192x64 main_cst_2
  let main_v11 : IVec S192x64 1 := cmpf .olt main_v9 main_v10
  let main_c_3 : IVec S_ 1 := constantI S_ 1 1#1
  let main_v12 : IVec S_ 1 := (fun x v => Host.reduce IntOp.andi x v reducesTo_S192x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S800000x2 : Shape := ⟨2, ![800000, 2]⟩
abbrev S800000x64 : Shape := ⟨2, ![800000, 64]⟩
abbrev S192x64 : Shape := ⟨2, ![192, 64]⟩
abbrev S64 : Shape := ⟨1, ![64]⟩
abbrev S64x64 : Shape := ⟨2, ![64, 64]⟩
abbrev S128x64 : Shape := ⟨2, ![128, 64]⟩
abbrev S800000x1 : Shape := ⟨2, ![800000, 1]⟩
abbrev S800000 : Shape := ⟨1, ![800000]⟩
abbrev S_ : Shape := ⟨0, ![]⟩
abbrev S1x64 : Shape := ⟨2, ![1, 64]⟩
abbrev S8000x64 : Shape := ⟨2, ![8000, 64]⟩
abbrev S800000x65 : Shape := ⟨2, ![800000, 65]⟩
abbrev S50000x65 : Shape := ⟨2, ![50000, 65]⟩
abbrev S50000x1 : Shape := ⟨2, ![50000, 1]⟩
abbrev S5000x64 : Shape := ⟨2, ![5000, 64]⟩

abbrev nBuf : Space → Nat
  | .hbm => 54
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S800000x2, .i32⟩
  | .hbm, ⟨2, _⟩ => ⟨S800000x64, .f32⟩
  | .hbm, ⟨3, _⟩ => ⟨S192x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S800000x1, .i32⟩
  | .hbm, ⟨12, _⟩ => ⟨S800000, .i32⟩
  | .hbm, ⟨13, _⟩ => ⟨S800000x1, .i32⟩
  | .hbm, ⟨14, _⟩ => ⟨S800000, .i32⟩
  | .hbm, ⟨15, _⟩ => ⟨S50000x64, .bf16⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .bf16⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .bf16⟩
  | .hbm, ⟨34, _⟩ => ⟨S1x64, .f32⟩
  | .hbm, ⟨35, _⟩ => ⟨S1x64, .f32⟩
  | .hbm, ⟨36, _⟩ => ⟨S800000x64, .f32⟩
  | .hbm, ⟨37, _⟩ => ⟨S_, .f32⟩
  | .hbm, ⟨38, _⟩ => ⟨S800000x1, .f32⟩
  | .hbm, ⟨39, _⟩ => ⟨S800000x65, .f32⟩
  | .hbm, ⟨40, _⟩ => ⟨S_, .f32⟩
  | .hbm, ⟨41, _⟩ => ⟨S50000x65, .f32⟩
  | .hbm, ⟨42, _⟩ => ⟨S800000x1, .i32⟩
  | .hbm, ⟨43, _⟩ => ⟨S50000x65, .f32⟩
  | .hbm, ⟨44, _⟩ => ⟨S50000x64, .f32⟩
  | .hbm, ⟨45, _⟩ => ⟨S50000x1, .f32⟩
  | .hbm, ⟨46, _⟩ => ⟨S_, .f32⟩
  | .hbm, ⟨47, _⟩ => ⟨S50000x1, .f32⟩
  | .hbm, ⟨48, _⟩ => ⟨S50000x1, .f32⟩
  | .hbm, ⟨49, _⟩ => ⟨S50000x64, .f32⟩
  | .hbm, ⟨50, _⟩ => ⟨S50000x64, .f32⟩
  | .hbm, ⟨51, _⟩ => ⟨S1x64, .f32⟩
  | .hbm, ⟨52, _⟩ => ⟨S1x64, .f32⟩
  | .hbm, ⟨53, _⟩ => ⟨S50000x64, .f32⟩
  | .local _ .vmem, ⟨0, _⟩ => ⟨S8000x64, .bf16⟩
  | .local _ .vmem, ⟨1, _⟩ => ⟨S8000x64, .bf16⟩
  | .local _ .vmem, ⟨2, _⟩ => ⟨S8000x64, .bf16⟩
  | .local _ .vmem, ⟨3, _⟩ => ⟨S8000x64, .bf16⟩
  | .local _ .vmem, ⟨4, _⟩ => ⟨S8000x64, .f32⟩
  | .local _ .vmem, ⟨5, _⟩ => ⟨S8000x64, .f32⟩
  | .local _ .vmem, ⟨6, _⟩ => ⟨S192x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S8000x64, .f32⟩
  | .local _ .vmem, ⟨11, _⟩ => ⟨S8000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S128x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S192x64_S192x64_0_0 : ∀ a, (![0, 0] : Fin 2 → Nat) a + S192x64.size a ≤ S192x64.size a
  h_S192x64 : 0 < S192x64.numel
  slices_S192x64_o0_0_S64x64 : S192x64.Slices ![0, 0] S64x64
  slices_S192x64_o64_0_S64x64 : S192x64.Slices ![64, 0] S64x64
  slices_S192x64_o128_0_S64x64 : S192x64.Slices ![128, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x64_S64x64_0_0 : ∀ a, (![0, 0] : Fin 2 → Nat) a + S64x64.size a ≤ S64x64.size a
  h_S64x64 : 0 < S64x64.numel
  bcast_S_S800000x1 : S_.BroadcastsInDim S800000x1 (![] : Fin 0 → Fin S800000x1.rank)
  concatenates_S800000x64_S800000x1_S800000x65_d1 : Shape.Concatenates [S800000x64, S800000x1] S800000x65 1
  bcast_S_S50000x65 : S_.BroadcastsInDim S50000x65 (![] : Fin 0 → Fin S50000x65.rank)
  slices_S50000x65_S50000x64_0_0 : S50000x65.Slices ![0, 0] S50000x64
  slices_S50000x65_S50000x1_0_64 : S50000x65.Slices ![0, 64] S50000x1
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S128x64_S128x64_0_0 : ∀ a, (![0, 0] : Fin 2 → Nat) a + S128x64.size a ≤ S128x64.size a
  h_S128x64 : 0 < S128x64.numel
  slices_S128x64_o0_0_S64x64 : S128x64.Slices ![0, 0] S64x64
  slices_S128x64_o64_0_S64x64 : S128x64.Slices ![64, 0] S64x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  dot_S8000x64_S64x64_S8000x64_1_0_0_1_n_n_wf : DotDims.WF S8000x64 S64x64 S8000x64 [1] [0] [0] [1] [] []
  scatter_S50000x65_S800000x1_S800000x65_1_0_0_1_wf : ScatterDims.WF S50000x65 S800000x1 S800000x65 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .bf16 = 32 ∨ (Rect.block (s := S800000x64) S8000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .bf16 = 32 ∨ (Rect.block (s := S800000x64) S8000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S800000x64.size a
  hwx0_2 : ∀ i : grid0.Coords, EltTy.bits .f32 = 32 ∨ (Rect.block (s := S800000x64) S8000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x64.size a ≤ S192x64.size a
  hwx0_3 : ∀ i : grid0.Coords, EltTy.bits .f32 = 32 ∨ (Rect.block (s := S192x64) S192x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x64.size a ≤ S800000x64.size a
  hwx0_7 : ∀ i : grid0.Coords, EltTy.bits .f32 = 32 ∨ (Rect.block (s := S800000x64) S8000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000x65_S800000x1_S800000x65_1_0_0_1 : ScatterDims S50000x65 S800000x1 S800000x65 where
  updateWindowDims := [1]
  insertedWindowDims := [0]
  scatterDimsToOperandDims := [0]
  indexVectorDim := 1
  wf := scatter_S50000x65_S800000x1_S800000x65_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v11) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S192x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S8000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x2 : Shape := ⟨2, ![800000, 2]⟩
abbrev S800000x64 : Shape := ⟨2, ![800000, 64]⟩
abbrev S192x64 : Shape := ⟨2, ![192, 64]⟩
abbrev S64 : Shape := ⟨1, ![64]⟩
abbrev S64x64 : Shape := ⟨2, ![64, 64]⟩
abbrev S128x64 : Shape := ⟨2, ![128, 64]⟩
abbrev S800000x1 : Shape := ⟨2, ![800000, 1]⟩
abbrev S800000 : Shape := ⟨1, ![800000]⟩
abbrev S_ : Shape := ⟨0, ![]⟩
abbrev S800000x192 : Shape := ⟨2, ![800000, 192]⟩
abbrev S1x64 : Shape := ⟨2, ![1, 64]⟩
abbrev S50000x1 : Shape := ⟨2, ![50000, 1]⟩
abbrev S50000x128 : Shape := ⟨2, ![50000, 128]⟩

abbrev nBuf : Space → Nat
  | .hbm => 72
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x2, .i32⟩
  | .hbm, ⟨2, _⟩ => ⟨S800000x64, .f32⟩
  | .hbm, ⟨3, _⟩ => ⟨S192x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S800000x1, .i32⟩
  | .hbm, ⟨12, _⟩ => ⟨S800000, .i32⟩
  | .hbm, ⟨13, _⟩ => ⟨S800000x1, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S800000x192, .f32⟩
  | .hbm, ⟨34, _⟩ => ⟨S800000x64, .f32⟩
  | .hbm, ⟨35, _⟩ => ⟨S1x64, .f32⟩
  | .hbm, ⟨36, _⟩ => ⟨S800000x64, .f32⟩
  | .hbm, ⟨37, _⟩ => ⟨S800000x64, .f32⟩
  | .hbm, ⟨38, _⟩ => ⟨S_, .f32⟩
  | .hbm, ⟨39, _⟩ => ⟨S800000x64, .f32⟩
  | .hbm, ⟨40, _⟩ => ⟨S800000x64, .f32⟩
  | .hbm, ⟨41, _⟩ => ⟨S800000x64, .f32⟩
  | .hbm, ⟨42, _⟩ => ⟨S1x64, .f32⟩
  | .hbm, ⟨43, _⟩ => ⟨S800000x64, .f32⟩
  | .hbm, ⟨44, _⟩ => ⟨S800000x64, .f32⟩
  | .hbm, ⟨45, _⟩ => ⟨S_, .f32⟩
  | .hbm, ⟨46, _⟩ => ⟨S50000x64, .f32⟩
  | .hbm, ⟨47, _⟩ => ⟨S800000x1, .i32⟩
  | .hbm, ⟨48, _⟩ => ⟨S50000x64, .f32⟩
  | .hbm, ⟨49, _⟩ => ⟨S_, .f32⟩
  | .hbm, ⟨50, _⟩ => ⟨S800000x1, .f32⟩
  | .hbm, ⟨51, _⟩ => ⟨S_, .f32⟩
  | .hbm, ⟨52, _⟩ => ⟨S50000x1, .f32⟩
  | .hbm, ⟨53, _⟩ => ⟨S800000x1, .i32⟩
  | .hbm, ⟨54, _⟩ => ⟨S50000x1, .f32⟩
  | .hbm, ⟨55, _⟩ => ⟨S_, .f32⟩
  | .hbm, ⟨56, _⟩ => ⟨S50000x1, .f32⟩
  | .hbm, ⟨57, _⟩ => ⟨S50000x1, .f32⟩
  | .hbm, ⟨58, _⟩ => ⟨S50000x64, .f32⟩
  | .hbm, ⟨59, _⟩ => ⟨S50000x64, .f32⟩
  | .hbm, ⟨60, _⟩ => ⟨S50000x128, .f32⟩
  | .hbm, ⟨61, _⟩ => ⟨S50000x64, .f32⟩
  | .hbm, ⟨62, _⟩ => ⟨S1x64, .f32⟩
  | .hbm, ⟨63, _⟩ => ⟨S50000x64, .f32⟩
  | .hbm, ⟨64, _⟩ => ⟨S50000x64, .f32⟩
  | .hbm, ⟨65, _⟩ => ⟨S_, .f32⟩
  | .hbm, ⟨66, _⟩ => ⟨S50000x64, .f32⟩
  | .hbm, ⟨67, _⟩ => ⟨S50000x64, .f32⟩
  | .hbm, ⟨68, _⟩ => ⟨S50000x64, .f32⟩
  | .hbm, ⟨69, _⟩ => ⟨S1x64, .f32⟩
  | .hbm, ⟨70, _⟩ => ⟨S50000x64, .f32⟩
  | .hbm, ⟨71, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call1_cst : Ref sig .tc := ⟨.hbm, 65, rfl⟩
abbrev main_call1_v0 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x192_S192x64_S800000x64_1_0_0_1_n_n_wf : DotDims.WF S800000x192 S192x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x64_S800000x64_1_0_0_1_n_n : DotDims S800000x192 S192x64 S800000x64 where
  lhsContracting := [1]
  rhsContracting := [0]
  lhsNonContracting := [0]
  rhsNonContracting := [1]
  lhsBatch := []
  rhsBatch := []
  wf := dot_S800000x192_S192x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The idealized kernel program's run with its two results named. The program is four segments: host operations,
  the edge perceptron's grid, host operations, the node perceptron's grid. After the last segment every buffer of the
  TensorCore holds the contents the segments' fold leaves (W4 below: each grid's output array at what its write-backs
  leave, every other buffer as the preceding host operations left it). The frame theorem reads the argument buffers out
  of that final state; here the two result buffers are read out of it as well, by the same launch theorem.
-/
import proofs.«160655_j618475290959_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the node result and the edge result end at
    the last boundary's contents of their buffers, and the arguments end as launched. -/
theorem run_results : θ_run defs (onTc (τ := τ) (main (F := F))) ⟨m, fun _ => 0, ρ⟩ (fun r => ∀ c : Dev nD,
      r.2.mem ((c.tc : Thread nD τ).loc main_v35) = W4 m ρ c (Proc.devRef .tc main_v35)
      ∧ r.2.mem ((c.tc : Thread nD τ).loc main_v21) = W4 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v35 (by decide)),
       h c _ (mem_uc main_v21 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Run

end
-- ==== Proof.Spec.lean ====
/-
  The two perceptrons of a graph-network layer, one output entry at a time, on the extended reals.

  Each is a first layer  pre(c) = (a contraction of the row's inputs with a weight matrix) + bias(c),  the rectifier
  max(·, 0), and a second layer  out(q) = Σ_c max(pre c, 0) · W2(c, q) + b2(q).  The first layer's input row is a row
  of several 64-wide pieces laid side by side (three for the edge perceptron: source features, target features, edge
  attributes; two for the node perceptron: node features, aggregated messages).  It can be contracted piece by piece,
  each piece against its 64 rows of the weight matrix, the partial products added from the left ("split"), or as one
  row of width 192 (128) against the whole matrix ("joined").  The two agree: a finite sum over an index range a + b
  splits into the sum over the first a and the sum over the last b positions, and addition on the extended reals is
  associative and commutative (no finiteness is needed).
-/
import Idealize.ShloMosaic.PureOps.Ideal
import Idealize.ShloMosaic.Lib.ValueIdx

noncomputable section

namespace Cert.Mlp

open Idealize.ShloMosaic
open scoped BigOperators

/-- The value of the f32 zero word: the rectifier's threshold. -/
abbrev zeroW : EReal := Ideal.ofBits .f32 0x00000000#32

/-- A sum over a + b = n consecutive positions is the sum over the first a plus the sum over the last b. -/
theorem sum_join {M : Type} [AddCommMonoid M] {a b n : Nat} (h : a + b = n) (f : Fin n → M) :
    ∑ k : Fin n, f k = ∑ i : Fin a, f ⟨i.val, by omega⟩ + ∑ i : Fin b, f ⟨a + i.val, by omega⟩ := by
  subst h
  rw [Fin.sum_univ_add]
  rfl

/-- The second layer on a rectified pre-activation row: out(q) = Σ_c max(pre c, 0) · W2(c, q) + b2(q). -/
def out (pre : Fin 64 → EReal) (W2 : Fin 64 → Fin 64 → EReal) (b2 : Fin 64 → EReal) (q : Fin 64) : EReal :=
  (∑ c : Fin 64, max (pre c) zeroW * W2 c q) + b2 q

/-! ## Three pieces (the edge perceptron) -/

/-- Three 64-wide pieces laid side by side: position k of the 192-wide row. -/
def cat3 (x y z : Fin 64 → EReal) (k : Fin 192) : EReal :=
  if h : k.val < 64 then x ⟨k.val, h⟩
  else if h2 : k.val < 128 then y ⟨k.val - 64, by omega⟩ else z ⟨k.val - 128, by omega⟩

/-- The first layer contracted piece by piece, the partial products added from the left, then the bias. -/
def pre3Split (x y z : Fin 64 → EReal) (W1 : Fin 192 → Fin 64 → EReal) (b1 : Fin 64 → EReal) (c : Fin 64) : EReal :=
  ((∑ j : Fin 64, x j * W1 ⟨j.val, by omega⟩ c + ∑ j : Fin 64, y j * W1 ⟨64 + j.val, by omega⟩ c)
    + ∑ j : Fin 64, z j * W1 ⟨128 + j.val, by omega⟩ c) + b1 c

/-- The first layer contracted as one 192-wide row, then the bias. -/
def pre3Join (x y z : Fin 64 → EReal) (W1 : Fin 192 → Fin 64 → EReal) (b1 : Fin 64 → EReal) (c : Fin 64) : EReal :=
  (∑ k : Fin 192, cat3 x y z k * W1 k c) + b1 c

theorem pre3Join_eq_split (x y z : Fin 64 → EReal) (W1 : Fin 192 → Fin 64 → EReal) (b1 : Fin 64 → EReal) :
    pre3Join x y z W1 b1 = pre3Split x y z W1 b1 := by
  funext c
  unfold pre3Join pre3Split
  refine congrArg₂ (· + ·) ?_ rfl
  rw [sum_join (a := 128) (b := 64) rfl, sum_join (a := 64) (b := 64) (n := 128) rfl]
  refine congrArg₂ (· + ·) (congrArg₂ (· + ·) ?_ ?_) ?_
  · refine Finset.sum_congr rfl fun j _ => ?_
    have hj := j.isLt
    unfold cat3
    rw [dif_pos (show j.val < 64 from hj)]
  · refine Finset.sum_congr rfl fun j _ => ?_
    have hj := j.isLt
    unfold cat3
    rw [dif_neg (show ¬ (64 + j.val < 64) by omega), dif_pos (show 64 + j.val < 128 by omega)]
    refine congrArg₂ (· * ·) (congrArg y (Fin.ext ?_)) rfl
    show 64 + j.val - 64 = j.val
    omega
  · refine Finset.sum_congr rfl fun j _ => ?_
    have hj := j.isLt
    unfold cat3
    rw [dif_neg (show ¬ (128 + j.val < 64) by omega), dif_neg (show ¬ (128 + j.val < 128) by omega)]
    refine congrArg₂ (· * ·) (congrArg z (Fin.ext ?_)) rfl
    show 128 + j.val - 128 = j.val
    omega

/-! ## Two pieces (the node perceptron) -/

/-- Two 64-wide pieces laid side by side: position k of the 128-wide row. -/
def cat2 (x y : Fin 64 → EReal) (k : Fin 128) : EReal :=
  if h : k.val < 64 then x ⟨k.val, h⟩ else y ⟨k.val - 64, by omega⟩

/-- The first layer contracted piece by piece, then the bias. -/
def pre2Split (x y : Fin 64 → EReal) (W1 : Fin 128 → Fin 64 → EReal) (b1 : Fin 64 → EReal) (c : Fin 64) : EReal :=
  (∑ j : Fin 64, x j * W1 ⟨j.val, by omega⟩ c + ∑ j : Fin 64, y j * W1 ⟨64 + j.val, by omega⟩ c) + b1 c

/-- The first layer contracted as one 128-wide row, then the bias. -/
def pre2Join (x y : Fin 64 → EReal) (W1 : Fin 128 → Fin 64 → EReal) (b1 : Fin 64 → EReal) (c : Fin 64) : EReal :=
  (∑ k : Fin 128, cat2 x y k * W1 k c) + b1 c

theorem pre2Join_eq_split (x y : Fin 64 → EReal) (W1 : Fin 128 → Fin 64 → EReal) (b1 : Fin 64 → EReal) :
    pre2Join x y W1 b1 = pre2Split x y W1 b1 := by
  funext c
  unfold pre2Join pre2Split
  refine congrArg₂ (· + ·) ?_ rfl
  rw [sum_join (a := 64) (b := 64) (n := 128) rfl]
  refine congrArg₂ (· + ·) ?_ ?_
  · refine Finset.sum_congr rfl fun j _ => ?_
    have hj := j.isLt
    unfold cat2
    rw [dif_pos (show j.val < 64 from hj)]
  · refine Finset.sum_congr rfl fun j _ => ?_
    have hj := j.isLt
    unfold cat2
    rw [dif_neg (show ¬ (64 + j.val < 64) by omega)]
    refine congrArg₂ (· * ·) (congrArg y (Fin.ext ?_)) rfl
    show 64 + j.val - 64 = j.val
    omega

end Cert.Mlp

end
-- ==== Proof.Layers.lean ====
/-
  The two perceptrons on whole arrays. Entry (k, q) of the edge perceptron's output depends on row k of the three
  800000 × 64 input arrays (source features, target features, edge attributes), on the 192 × 64 and 64 × 64 weight
  matrices and on the two bias rows; entry (n, q) of the node perceptron's output on row n of the two 50000 × 64 inputs
  (node features, normalised aggregate), the 128 × 64 and 64 × 64 weights and the two bias rows. A bias is taken as a
  plain row of 64 numbers, so that a bias given as a vector and one given as a one-row matrix meet in the same formula.
-/
import proofs.«160655_j618475290959_2_alg».proof.Proof.Spec

noncomputable section

namespace Cert.Mlp

open Idealize.ShloMosaic Idealize.ShloMosaic.ValueIdx
open scoped BigOperators

/-- Entry (k, q) of the edge perceptron, the first layer contracted piece by piece. -/
def edgeEntry (xr xc ea : (⟨2, ![800000, 64]⟩ : Shape).Idx → EReal) (W1 : (⟨2, ![192, 64]⟩ : Shape).Idx → EReal)
    (b1 : Fin 64 → EReal) (W2 : (⟨2, ![64, 64]⟩ : Shape).Idx → EReal) (b2 : Fin 64 → EReal)
    (k : Fin 800000) (q : Fin 64) : EReal :=
  out (pre3Split (fun j => xr (ix2 k j)) (fun j => xc (ix2 k j)) (fun j => ea (ix2 k j)) (fun a c => W1 (ix2 a c)) b1)
    (fun c q' => W2 (ix2 c q')) b2 q

/-- The edge perceptron's output array. -/
def edgeArr (xr xc ea : (⟨2, ![800000, 64]⟩ : Shape).Idx → EReal) (W1 : (⟨2, ![192, 64]⟩ : Shape).Idx → EReal)
    (b1 : Fin 64 → EReal) (W2 : (⟨2, ![64, 64]⟩ : Shape).Idx → EReal) (b2 : Fin 64 → EReal) :
    (⟨2, ![800000, 64]⟩ : Shape).Idx → EReal :=
  fun i => edgeEntry xr xc ea W1 b1 W2 b2 (i 0) (i 1)

theorem edgeArr_apply (xr xc ea : (⟨2, ![800000, 64]⟩ : Shape).Idx → EReal) (W1 : (⟨2, ![192, 64]⟩ : Shape).Idx → EReal)
    (b1 : Fin 64 → EReal) (W2 : (⟨2, ![64, 64]⟩ : Shape).Idx → EReal) (b2 : Fin 64 → EReal) (k : Fin 800000) (q : Fin 64) :
    edgeArr xr xc ea W1 b1 W2 b2 (ix2 k q) = edgeEntry xr xc ea W1 b1 W2 b2 k q := rfl

/-- The same entry with the first layer contracted as one 192-wide row: the same number. -/
theorem edgeEntry_join (xr xc ea : (⟨2, ![800000, 64]⟩ : Shape).Idx → EReal) (W1 : (⟨2, ![192, 64]⟩ : Shape).Idx → EReal)
    (b1 : Fin 64 → EReal) (W2 : (⟨2, ![64, 64]⟩ : Shape).Idx → EReal) (b2 : Fin 64 → EReal) (k : Fin 800000) (q : Fin 64) :
    out (pre3Join (fun j => xr (ix2 k j)) (fun j => xc (ix2 k j)) (fun j => ea (ix2 k j)) (fun a c => W1 (ix2 a c)) b1)
      (fun c q' => W2 (ix2 c q')) b2 q = edgeEntry xr xc ea W1 b1 W2 b2 k q := by
  unfold edgeEntry
  rw [pre3Join_eq_split]

/-- Entry (n, q) of the node perceptron, the first layer contracted piece by piece. -/
def nodeEntry (f g : (⟨2, ![50000, 64]⟩ : Shape).Idx → EReal) (W1 : (⟨2, ![128, 64]⟩ : Shape).Idx → EReal)
    (b1 : Fin 64 → EReal) (W2 : (⟨2, ![64, 64]⟩ : Shape).Idx → EReal) (b2 : Fin 64 → EReal)
    (n : Fin 50000) (q : Fin 64) : EReal :=
  out (pre2Split (fun j => f (ix2 n j)) (fun j => g (ix2 n j)) (fun a c => W1 (ix2 a c)) b1)
    (fun c q' => W2 (ix2 c q')) b2 q

/-- The node perceptron's output array. -/
def nodeArr (f g : (⟨2, ![50000, 64]⟩ : Shape).Idx → EReal) (W1 : (⟨2, ![128, 64]⟩ : Shape).Idx → EReal)
    (b1 : Fin 64 → EReal) (W2 : (⟨2, ![64, 64]⟩ : Shape).Idx → EReal) (b2 : Fin 64 → EReal) :
    (⟨2, ![50000, 64]⟩ : Shape).Idx → EReal :=
  fun i => nodeEntry f g W1 b1 W2 b2 (i 0) (i 1)

theorem nodeArr_apply (f g : (⟨2, ![50000, 64]⟩ : Shape).Idx → EReal) (W1 : (⟨2, ![128, 64]⟩ : Shape).Idx → EReal)
    (b1 : Fin 64 → EReal) (W2 : (⟨2, ![64, 64]⟩ : Shape).Idx → EReal) (b2 : Fin 64 → EReal) (n : Fin 50000) (q : Fin 64) :
    nodeArr f g W1 b1 W2 b2 (ix2 n q) = nodeEntry f g W1 b1 W2 b2 n q := rfl

/-- The same entry with the first layer contracted as one 128-wide row: the same number. -/
theorem nodeEntry_join (f g : (⟨2, ![50000, 64]⟩ : Shape).Idx → EReal) (W1 : (⟨2, ![128, 64]⟩ : Shape).Idx → EReal)
    (b1 : Fin 64 → EReal) (W2 : (⟨2, ![64, 64]⟩ : Shape).Idx → EReal) (b2 : Fin 64 → EReal) (n : Fin 50000) (q : Fin 64) :
    out (pre2Join (fun j => f (ix2 n j)) (fun j => g (ix2 n j)) (fun a c => W1 (ix2 a c)) b1)
      (fun c q' => W2 (ix2 c q')) b2 q = nodeEntry f g W1 b1 W2 b2 n q := by
  unfold nodeEntry
  rw [pre2Join_eq_split]

end Cert.Mlp

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.Payload.lean ====
/-
  The two perceptron kernels' bodies read at one output entry, at the ideal values.

  Each body is: the input row's 64-wide pieces, each multiplied (matrix unit, zero accumulator) with its own 64 rows of
  the first weight matrix, the products added from the left; plus the first bias row broadcast over the rows; the
  rectifier max(·, 0); a product with the second weight matrix; plus the second bias row.  At the ideal values a
  narrowing of the format is the identity, a reshape to the same shape is the identity, a slice of 64 rows from row o
  reads row o + j, and a product into a zero accumulator at (p, c) is the sum over the contracted coordinate.  So the
  body at (p, q) is the second layer applied to the split form of the first layer on row p.
-/
import proofs.«160655_j618475290959_2_alg».proof.Proof.Gen.KernelIdeal.Skeleton
import proofs.«160655_j618475290959_2_alg».proof.Proof.Spec
import proofs.«160655_j618475290959_2_alg».proof.Proof.LibDot
import Idealize.ShloMosaic.Lib.ValueIdx
import Idealize.ShloMosaic.Lib.Pipeline.Value
import Idealize.ShloMosaic.Lib.ValueLayout

noncomputable section

namespace Cert.KernelIdeal.Payload

open Idealize.ShloMosaic Idealize.ShloMosaic.ValueIdx
open Cert.KernelIdeal Cert.KernelIdeal.Gen
open scoped BigOperators

variable {m K : Nat} {φa φb φc φw φh : FTy}

/-- One piece of the first layer: a block of rows against the 64 rows of the weight matrix that start at row o, into a
    zero accumulator, at (p, c), is the sum over j of A (p, j) * W (o + j, c). -/
theorem piece_apply (w : DotDims.WF ⟨2, ![m, 64]⟩ ⟨2, ![64, 64]⟩ ⟨2, ![m, 64]⟩ [1] [0] [0] [1] [] [])
    (o : Nat) (A : FVec Ideal ⟨2, ![m, 64]⟩ φa) (W : FVec Ideal ⟨2, ![K, 64]⟩ φw)
    (h : (⟨2, ![K, 64]⟩ : Shape).Slices ![o, 0] ⟨2, ![64, 64]⟩) (p : Fin m) (c : Fin 64) :
    matmul (Cert.LibDot.dims w) none A (extractStridedSlice ⟨2, ![64, 64]⟩ ![o, 0] W h)
        (constant ⟨2, ![m, 64]⟩ .f32 0x00000000#32) (ix2 p c)
      = ∑ j : Fin 64, A (ix2 p j)
          * W (ix2 ⟨o + j.val, Nat.lt_of_lt_of_le (Nat.add_lt_add_left j.isLt o) (h.2 0)⟩ c) := by
  refine (Cert.LibDot.matmul_zero_apply w none A _ p c).trans ?_
  refine Finset.sum_congr rfl fun j _ => ?_
  exact congrArg (fun t => A (ix2 p j) * t) (slice2_axis0_eq o W h j c)

/-- A bias row, reshaped to its own shape and broadcast over the rows, at (p, c), is the row at c. -/
theorem bias_apply (b : FVec Ideal ⟨2, ![1, 64]⟩ .f32)
    (hs : (⟨2, ![1, 64]⟩ : Shape).ShapeCasts ⟨2, ![1, 64]⟩)
    (hb : (⟨2, ![1, 64]⟩ : Shape).Broadcasts ⟨2, ![m, 64]⟩) (p : Fin m) (c : Fin 64) :
    broadcastTo ⟨2, ![m, 64]⟩ (shapeCast ⟨2, ![1, 64]⟩ b hs) hb (ix2 p c) = b (ix2 (0 : Fin 1) c) :=
  (broadcastTo_1b_ab_apply _ hb p c).trans (congrFun (shapeCast_self b hs) _)

/-- The rectifier: the maximum with a broadcast zero word, narrowed, at an index. -/
theorem relu_apply {s : Shape} (X : FVec Ideal s .f32) (hlt : FTy.bits .bf16 < FTy.bits .f32) (i : s.Idx) :
    (truncf .bf16 (maximumf X (broadcast s (Scalar.ofBits (F := Ideal) .f32 0x00000000#32))) hlt : FVec Ideal s .bf16) i
      = max (X i) Cert.Mlp.zeroW := rfl

/-- The second layer: a product with the second weight matrix into a zero accumulator plus the second bias row. -/
theorem layer2_apply (w : DotDims.WF ⟨2, ![m, 64]⟩ ⟨2, ![64, 64]⟩ ⟨2, ![m, 64]⟩ [1] [0] [0] [1] [] [])
    (H : FVec Ideal ⟨2, ![m, 64]⟩ φh) (W2 : FVec Ideal ⟨2, ![64, 64]⟩ φw) (b : FVec Ideal ⟨2, ![1, 64]⟩ .f32)
    (hs : (⟨2, ![1, 64]⟩ : Shape).ShapeCasts ⟨2, ![1, 64]⟩)
    (hb : (⟨2, ![1, 64]⟩ : Shape).Broadcasts ⟨2, ![m, 64]⟩) (p : Fin m) (q : Fin 64) :
    addf (matmul (Cert.LibDot.dims w) none H W2 (constant ⟨2, ![m, 64]⟩ .f32 0x00000000#32))
        (broadcastTo ⟨2, ![m, 64]⟩ (shapeCast ⟨2, ![1, 64]⟩ b hs) hb) (ix2 p q)
      = (∑ c : Fin 64, H (ix2 p c) * W2 (ix2 c q)) + b (ix2 (0 : Fin 1) q) := by
  rw [addf_apply]
  exact congrArg₂ (· + ·) (Cert.LibDot.matmul_zero_apply w none H W2 p q) (bias_apply b hs hb p q)

/-- The first layer of three pieces, at (p, c): the split form on row p. -/
theorem hidden3_apply (w : DotDims.WF ⟨2, ![m, 64]⟩ ⟨2, ![64, 64]⟩ ⟨2, ![m, 64]⟩ [1] [0] [0] [1] [] [])
    (A : FVec Ideal ⟨2, ![m, 64]⟩ φa) (B : FVec Ideal ⟨2, ![m, 64]⟩ φb) (C : FVec Ideal ⟨2, ![m, 64]⟩ φc)
    (W : FVec Ideal ⟨2, ![192, 64]⟩ φw) (b : FVec Ideal ⟨2, ![1, 64]⟩ .f32)
    (h0 : (⟨2, ![192, 64]⟩ : Shape).Slices ![0, 0] ⟨2, ![64, 64]⟩)
    (h1 : (⟨2, ![192, 64]⟩ : Shape).Slices ![64, 0] ⟨2, ![64, 64]⟩)
    (h2 : (⟨2, ![192, 64]⟩ : Shape).Slices ![128, 0] ⟨2, ![64, 64]⟩)
    (hs : (⟨2, ![1, 64]⟩ : Shape).ShapeCasts ⟨2, ![1, 64]⟩)
    (hb : (⟨2, ![1, 64]⟩ : Shape).Broadcasts ⟨2, ![m, 64]⟩) (p : Fin m) (c : Fin 64) :
    addf (addf (addf
          (matmul (Cert.LibDot.dims w) none A (extractStridedSlice ⟨2, ![64, 64]⟩ ![0, 0] W h0)
            (constant ⟨2, ![m, 64]⟩ .f32 0x00000000#32))
          (matmul (Cert.LibDot.dims w) none B (extractStridedSlice ⟨2, ![64, 64]⟩ ![64, 0] W h1)
            (constant ⟨2, ![m, 64]⟩ .f32 0x00000000#32)))
          (matmul (Cert.LibDot.dims w) none C (extractStridedSlice ⟨2, ![64, 64]⟩ ![128, 0] W h2)
            (constant ⟨2, ![m, 64]⟩ .f32 0x00000000#32)))
        (broadcastTo ⟨2, ![m, 64]⟩ (shapeCast ⟨2, ![1, 64]⟩ b hs) hb) (ix2 p c)
      = Cert.Mlp.pre3Split (fun j => A (ix2 p j)) (fun j => B (ix2 p j)) (fun j => C (ix2 p j))
          (fun k c' => W (ix2 k c')) (fun c' => b (ix2 (0 : Fin 1) c')) c := by
  unfold Cert.Mlp.pre3Split
  rw [addf_apply, addf_apply, addf_apply]
  refine congrArg₂ (· + ·) (congrArg₂ (· + ·) (congrArg₂ (· + ·) ?_ ?_) ?_) (bias_apply b hs hb p c)
  · refine (piece_apply w 0 A W h0 p c).trans (Finset.sum_congr rfl fun j _ => ?_)
    exact congrArg (fun k => A (ix2 p j) * W (ix2 k c)) (Fin.ext (Nat.zero_add j.val))
  · exact piece_apply w 64 B W h1 p c
  · exact piece_apply w 128 C W h2 p c

/-- The first layer of two pieces, at (p, c): the split form on row p. -/
theorem hidden2_apply (w : DotDims.WF ⟨2, ![m, 64]⟩ ⟨2, ![64, 64]⟩ ⟨2, ![m, 64]⟩ [1] [0] [0] [1] [] [])
    (A : FVec Ideal ⟨2, ![m, 64]⟩ φa) (B : FVec Ideal ⟨2, ![m, 64]⟩ φb)
    (W : FVec Ideal ⟨2, ![128, 64]⟩ φw) (b : FVec Ideal ⟨2, ![1, 64]⟩ .f32)
    (h0 : (⟨2, ![128, 64]⟩ : Shape).Slices ![0, 0] ⟨2, ![64, 64]⟩)
    (h1 : (⟨2, ![128, 64]⟩ : Shape).Slices ![64, 0] ⟨2, ![64, 64]⟩)
    (hs : (⟨2, ![1, 64]⟩ : Shape).ShapeCasts ⟨2, ![1, 64]⟩)
    (hb : (⟨2, ![1, 64]⟩ : Shape).Broadcasts ⟨2, ![m, 64]⟩) (p : Fin m) (c : Fin 64) :
    addf (addf
          (matmul (Cert.LibDot.dims w) none A (extractStridedSlice ⟨2, ![64, 64]⟩ ![0, 0] W h0)
            (constant ⟨2, ![m, 64]⟩ .f32 0x00000000#32))
          (matmul (Cert.LibDot.dims w) none B (extractStridedSlice ⟨2, ![64, 64]⟩ ![64, 0] W h1)
            (constant ⟨2, ![m, 64]⟩ .f32 0x00000000#32)))
        (broadcastTo ⟨2, ![m, 64]⟩ (shapeCast ⟨2, ![1, 64]⟩ b hs) hb) (ix2 p c)
      = Cert.Mlp.pre2Split (fun j => A (ix2 p j)) (fun j => B (ix2 p j))
          (fun k c' => W (ix2 k c')) (fun c' => b (ix2 (0 : Fin 1) c')) c := by
  unfold Cert.Mlp.pre2Split
  rw [addf_apply, addf_apply]
  refine congrArg₂ (· + ·) (congrArg₂ (· + ·) ?_ ?_) (bias_apply b hs hb p c)
  · refine (piece_apply w 0 A W h0 p c).trans (Finset.sum_congr rfl fun j _ => ?_)
    exact congrArg (fun k => A (ix2 p j) * W (ix2 k c)) (Fin.ext (Nat.zero_add j.val))
  · exact piece_apply w 64 B W h1 p c

/-- The edge perceptron's body at (p, q). -/
theorem k0_pay1_apply (v0 v2 : Vec Ideal S8000x64 .bf16) (v4 : Vec Ideal S8000x64 .f32) (v6 : Vec Ideal S192x64 .f32)
    (v16 : Vec Ideal S1x64 .f32) (v23 : Vec Ideal S64x64 .f32) (v26 : Vec Ideal S1x64 .f32) (p : Fin 8000) (q : Fin 64) :
    k0_pay1 (F := Ideal) v0 v2 v4 v6 v16 v23 v26 (ix2 p q)
      = Cert.Mlp.out (Cert.Mlp.pre3Split (fun j => v0 (ix2 p j)) (fun j => v2 (ix2 p j)) (fun j => v4 (ix2 p j))
          (fun k c => v6 (ix2 k c)) (fun c => v16 (ix2 (0 : Fin 1) c))) (fun c q' => v23 (ix2 c q'))
          (fun q' => v26 (ix2 (0 : Fin 1) q')) q := by
  unfold Cert.Mlp.out
  refine (layer2_apply (m := 8000) dot_S8000x64_S64x64_S8000x64_1_0_0_1_n_n.wf _ _ v26 _ _ p q).trans ?_
  refine congrArg₂ (· + ·) (Finset.sum_congr rfl fun c _ => ?_) rfl
  refine congrArg₂ (· * ·) ?_ rfl
  refine (relu_apply _ _ (ix2 p c)).trans (congrArg (fun t => max t Cert.Mlp.zeroW) ?_)
  refine (hidden3_apply (m := 8000) dot_S8000x64_S64x64_S8000x64_1_0_0_1_n_n.wf
    (shapeCast S8000x64 v0 shapeCasts_S8000x64_S8000x64) (shapeCast S8000x64 v2 shapeCasts_S8000x64_S8000x64)
    v4 v6 v16 _ _ _ _ _ p c).trans ?_
  rw [shapeCast_self, shapeCast_self]

/-- The node perceptron's body at (p, q). -/
theorem k1_pay1_apply (v0 v2 : Vec Ideal S5000x64 .f32) (v5 : Vec Ideal S128x64 .f32) (v12 : Vec Ideal S1x64 .f32)
    (v19 : Vec Ideal S64x64 .f32) (v22 : Vec Ideal S1x64 .f32) (p : Fin 5000) (q : Fin 64) :
    k1_pay1 (F := Ideal) v0 v2 v5 v12 v19 v22 (ix2 p q)
      = Cert.Mlp.out (Cert.Mlp.pre2Split (fun j => v0 (ix2 p j)) (fun j => v2 (ix2 p j))
          (fun k c => v5 (ix2 k c)) (fun c => v12 (ix2 (0 : Fin 1) c))) (fun c q' => v19 (ix2 c q'))
          (fun q' => v22 (ix2 (0 : Fin 1) q')) q := by
  unfold Cert.Mlp.out
  refine (layer2_apply (m := 5000) dot_S5000x64_S64x64_S5000x64_1_0_0_1_n_n.wf _ _ v22 _ _ p q).trans ?_
  refine congrArg₂ (· + ·) (Finset.sum_congr rfl fun c _ => ?_) rfl
  refine congrArg₂ (· * ·) ?_ rfl
  refine (relu_apply _ _ (ix2 p c)).trans (congrArg (fun t => max t Cert.Mlp.zeroW) ?_)
  refine (hidden2_apply (m := 5000) dot_S5000x64_S64x64_S5000x64_1_0_0_1_n_n.wf
    v0 (shapeCast S5000x64 v2 shapeCasts_S5000x64_S5000x64) v5 v12 _ _ _ _ p c).trans ?_
  rw [shapeCast_self]

end Cert.KernelIdeal.Payload

end
-- ==== Proof.EdgeRegion.lean ====
import proofs.«160655_j618475290959_2_alg».proof.Proof.Gen.KernelIdeal.Frame
import proofs.«160655_j618475290959_2_alg».proof.Proof.Layers
import proofs.«160655_j618475290959_2_alg».proof.Proof.Payload
import Idealize.ShloMosaic.Lib.Pipeline.Value
import Idealize.ShloMosaic.Lib.ValueIdx

set_option maxRecDepth 16384

noncomputable section

namespace Cert.KernelIdeal.EdgeRegion

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The edge grid's index maps: at point t the three row-tiled inputs and the output sit at block (t, 0), the weights
    and bias rows at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The body on a block of 8000 rows whose row p is row k of the whole arrays computes entry (k, q) of the edge
    perceptron at its entry (p, q). -/
theorem edge_block (x0 x1 : Vec Ideal S8000x64 .bf16) (x2 : Vec Ideal S8000x64 .f32) (x3 : Vec Ideal S192x64 .f32)
    (x4 : Vec Ideal S1x64 .f32) (x5 : Vec Ideal S64x64 .f32) (x6 : Vec Ideal S1x64 .f32)
    (xr xc ea : (⟨2, ![800000, 64]⟩ : Shape).Idx → EReal) (W1 : (⟨2, ![192, 64]⟩ : Shape).Idx → EReal)
    (b1 : Fin 64 → EReal) (W2 : (⟨2, ![64, 64]⟩ : Shape).Idx → EReal) (b2 : Fin 64 → EReal)
    (p : Fin 8000) (q : Fin 64) (k : Fin 800000)
    (h0 : ∀ j : Fin 64, x0 (ix2 p j) = xr (ix2 k j)) (h1 : ∀ j : Fin 64, x1 (ix2 p j) = xc (ix2 k j))
    (h2 : ∀ j : Fin 64, x2 (ix2 p j) = ea (ix2 k j)) (h3 : ∀ (a : Fin 192) (c : Fin 64), x3 (ix2 a c) = W1 (ix2 a c))
    (h4 : ∀ c : Fin 64, x4 (ix2 (0 : Fin 1) c) = b1 c) (h5 : ∀ c q' : Fin 64, x5 (ix2 c q') = W2 (ix2 c q'))
    (h6 : ∀ q' : Fin 64, x6 (ix2 (0 : Fin 1) q') = b2 q') :
    k0_pay1 (F := Ideal) x0 x1 x2 x3 x4 x5 x6 (ix2 p q) = Cert.Mlp.edgeEntry xr xc ea W1 b1 W2 b2 k q := by
  rw [Cert.KernelIdeal.Payload.k0_pay1_apply]
  unfold Cert.Mlp.edgeEntry
  rw [funext h0, funext h1, funext h2, funext h4, funext h6,
    (funext fun a => funext fun c => h3 a c : (fun a c => x3 (ix2 a c)) = fun a c => W1 (ix2 a c)),
    (funext fun c => funext fun q' => h5 c q' : (fun c q' => x5 (ix2 c q')) = fun c q' => W2 (ix2 c q'))]

/-- What point t writes back is block t of the edge perceptron of the arrays as the grid finds them. -/
theorem flushed_edge (c : Dev nD) (t : Fin cfg0.N) :
    (dat0 V c).flushed 7 t = ((cfg0.win 7).blk t).view.read (Elt Ideal)
      (Cert.Mlp.edgeArr (V c main_v11) (V c main_v18) (V c main_arg2) (V c main_arg3) (fun c' => V c main_v19 (ix2 (0 : Fin 1) c'))
        (V c main_arg5) (fun c' => V c main_v20 (ix2 (0 : Fin 1) c'))) := by
  show (cfg0.win 7).cut (grid0.coords t) ((dat0 V c).after 7 t) = _
  rw [after0_7]
  unfold out0_7
  rw [View.canon_unit_zero hz]
  simp only [View.ld_unit_zero (S := S8000x64) hz, View.ld_unit_zero (S := S192x64) hz, View.ld_unit_zero (S := S1x64) hz, View.ld_unit_zero (S := S64x64) hz]
  funext j
  have hj0 : (j 0).val < 8000 := (j 0).isLt
  have hj1 : (j 1).val < 64 := (j 1).isLt
  have ht : t.val < 100 := t.isLt
  obtain ⟨a00, a01, a10, a11, a20, a21, a30, a31, a40, a41, a50, a51, a60, a61, a70, a71⟩ := idx0 t
  have hx : (win0 7).xinj (grid0.coords t) j = ix2 (⟨(j 0).val, hj0⟩ : Fin 8000) (⟨(j 1).val, hj1⟩ : Fin 64) :=
    funext fun a => by match a with | ⟨0, _⟩ => rfl | ⟨1, _⟩ => rfl
  have he : ((cfg0.win 7).blk t).view.emb j
      = ix2 (⟨t.val * 8000 + (j 0).val, by omega⟩ : Fin 800000) (⟨(j 1).val, hj1⟩ : Fin 64) := by
    funext a; apply Fin.ext
    match a with
    | ⟨0, _⟩ => show win0_7.index t (0 : Fin 2) * 8000 + 1 * (j 0).val = t.val * 8000 + (j 0).val; rw [a70]; omega
    | ⟨1, _⟩ => show win0_7.index t (1 : Fin 2) * 64 + 1 * (j 1).val = (j 1).val; rw [a71]; omega
  show k0_pay1 (iblk0 V c 0 t) (iblk0 V c 1 t) (iblk0 V c 2 t) (iblk0 V c 3 t) (iblk0 V c 4 t) (iblk0 V c 5 t) (iblk0 V c 6 t)
      ((win0 7).xinj (grid0.coords t) j)
    = Cert.Mlp.edgeArr (V c main_v11) (V c main_v18) (V c main_arg2) (V c main_arg3) (fun c' => V c main_v19 (ix2 (0 : Fin 1) c'))
        (V c main_arg5) (fun c' => V c main_v20 (ix2 (0 : Fin 1) c')) (((cfg0.win 7).blk t).view.emb j)
  rw [hx, he, Cert.Mlp.edgeArr_apply]
  refine edge_block (iblk0 V c 0 t) (iblk0 V c 1 t) (iblk0 V c 2 t) (iblk0 V c 3 t) (iblk0 V c 4 t) (iblk0 V c 5 t) (iblk0 V c 6 t)
    (V c main_v11) (V c main_v18) (V c main_arg2) (V c main_arg3) (fun c' => V c main_v19 (ix2 (0 : Fin 1) c'))
    (V c main_arg5) (fun c' => V c main_v20 (ix2 (0 : Fin 1) c'))
    (⟨(j 0).val, hj0⟩ : Fin 8000) (⟨(j 1).val, hj1⟩ : Fin 64) (⟨t.val * 8000 + (j 0).val, by omega⟩ : Fin 800000) ?_ ?_ ?_ ?_ ?_ ?_ ?_
  · intro j'
    have hj' := j'.isLt
    show V c main_v11 (((cfg0.win 0).blk t).view.emb (ix2 (⟨(j 0).val, hj0⟩ : Fin 8000) j')) = _
    refine congrArg (V c main_v11) (funext fun a => Fin.ext ?_)
    match a with
    | ⟨0, _⟩ => show win0_0.index t (0 : Fin 2) * 8000 + 1 * (j 0).val = t.val * 8000 + (j 0).val; rw [a00]; omega
    | ⟨1, _⟩ => show win0_0.index t (1 : Fin 2) * 64 + 1 * j'.val = j'.val; rw [a01]; omega
  · intro j'
    have hj' := j'.isLt
    show V c main_v18 (((cfg0.win 1).blk t).view.emb (ix2 (⟨(j 0).val, hj0⟩ : Fin 8000) j')) = _
    refine congrArg (V c main_v18) (funext fun a => Fin.ext ?_)
    match a with
    | ⟨0, _⟩ => show win0_1.index t (0 : Fin 2) * 8000 + 1 * (j 0).val = t.val * 8000 + (j 0).val; rw [a10]; omega
    | ⟨1, _⟩ => show win0_1.index t (1 : Fin 2) * 64 + 1 * j'.val = j'.val; rw [a11]; omega
  · intro j'
    have hj' := j'.isLt
    show V c main_arg2 (((cfg0.win 2).blk t).view.emb (ix2 (⟨(j 0).val, hj0⟩ : Fin 8000) j')) = _
    refine congrArg (V c main_arg2) (funext fun a => Fin.ext ?_)
    match a with
    | ⟨0, _⟩ => show win0_2.index t (0 : Fin 2) * 8000 + 1 * (j 0).val = t.val * 8000 + (j 0).val; rw [a20]; omega
    | ⟨1, _⟩ => show win0_2.index t (1 : Fin 2) * 64 + 1 * j'.val = j'.val; rw [a21]; omega
  · intro a' c'
    show V c main_arg3 (((cfg0.win 3).blk t).view.emb (ix2 a' c')) = _
    refine congrArg (V c main_arg3) (funext fun a => Fin.ext ?_)
    match a with
    | ⟨0, _⟩ => show win0_3.index t (0 : Fin 2) * 192 + 1 * a'.val = a'.val; rw [a30]; omega
    | ⟨1, _⟩ => show win0_3.index t (1 : Fin 2) * 64 + 1 * c'.val = c'.val; rw [a31]; omega
  · intro c'
    show V c main_v19 (((cfg0.win 4).blk t).view.emb (ix2 (0 : Fin 1) c')) = _
    refine congrArg (V c main_v19) (funext fun a => Fin.ext ?_)
    match a with
    | ⟨0, _⟩ => show win0_4.index t (0 : Fin 2) * 1 + 1 * 0 = 0; rw [a40]
    | ⟨1, _⟩ => show win0_4.index t (1 : Fin 2) * 64 + 1 * c'.val = c'.val; rw [a41]; omega
  · intro c' q'
    show V c main_arg5 (((cfg0.win 5).blk t).view.emb (ix2 c' q')) = _
    refine congrArg (V c main_arg5) (funext fun a => Fin.ext ?_)
    match a with
    | ⟨0, _⟩ => show win0_5.index t (0 : Fin 2) * 64 + 1 * c'.val = c'.val; rw [a50]; omega
    | ⟨1, _⟩ => show win0_5.index t (1 : Fin 2) * 64 + 1 * q'.val = q'.val; rw [a51]; omega
  · intro q'
    show V c main_v20 (((cfg0.win 6).blk t).view.emb (ix2 (0 : Fin 1) q')) = _
    refine congrArg (V c main_v20) (funext fun a => Fin.ext ?_)
    match a with
    | ⟨0, _⟩ => show win0_6.index t (0 : Fin 2) * 1 + 1 * 0 = 0; rw [a60]
    | ⟨1, _⟩ => show win0_6.index t (1 : Fin 2) * 64 + 1 * q'.val = q'.val; rw [a61]; omega

/-- An index of the output array lies in point t's block iff each coordinate lies in the block's range on its axis. -/
theorem mem_blk (t : Fin cfg0.N) (i : S800000x64.Idx) :
    i ∈ ((cfg0.win 7).blk t).view.set ↔ ∀ a : Fin 2, win0_7.index t a * S8000x64.size a ≤ (i a).val
      ∧ (i a).val < win0_7.index t a * S8000x64.size a + S8000x64.size a := by
  show i ∈ ((View.whole main_v21).slice (win0_7.rect t)).set ↔ _
  rw [View.set_slice_whole, Rect.mem_set_unit]
  exact Iff.rfl

/-- The hundred blocks of 8000 rows tile the 800000 rows: row r lies in block r / 8000. -/
theorem cover (i : S800000x64.Idx) :
    ∃ t : Fin cfg0.N, (cfg0.win 7).flush t = true ∧ i ∈ ((cfg0.win 7).blk t).view.set := by
  have hi0 : (i 0).val < 800000 := (i 0).isLt
  have hi1 : (i 1).val < 64 := (i 1).isLt
  have hN : cfg0.N = 100 := N_0
  have hlt : (i 0).val / 8000 < cfg0.N := by rw [hN]; omega
  obtain ⟨-, -, -, -, -, -, -, -, -, -, -, -, -, -, a70, a71⟩ := idx0 ⟨(i 0).val / 8000, hlt⟩
  refine ⟨⟨(i 0).val / 8000, hlt⟩, flush0_7 _, ?_⟩
  rw [mem_blk]
  intro a
  match a with
  | ⟨0, _⟩ =>
    show win0_7.index ⟨(i 0).val / 8000, hlt⟩ (0 : Fin 2) * 8000 ≤ (i 0).val
      ∧ (i 0).val < win0_7.index ⟨(i 0).val / 8000, hlt⟩ (0 : Fin 2) * 8000 + 8000
    rw [a70]
    show (i 0).val / 8000 * 8000 ≤ (i 0).val ∧ (i 0).val < (i 0).val / 8000 * 8000 + 8000
    omega
  | ⟨1, _⟩ =>
    show win0_7.index ⟨(i 0).val / 8000, hlt⟩ (1 : Fin 2) * 64 ≤ (i 1).val
      ∧ (i 1).val < win0_7.index ⟨(i 0).val / 8000, hlt⟩ (1 : Fin 2) * 64 + 64
    rw [a71]
    omega

/-- The output array after the grid: the edge perceptron of the arrays as the grid finds them. -/
theorem edge_array (c : Dev nD) :
    (dat0 V c).arrAt 7 cfg0.N
      = Cert.Mlp.edgeArr (V c main_v11) (V c main_v18) (V c main_arg2) (V c main_arg3) (fun c' => V c main_v19 (ix2 (0 : Fin 1) c'))
        (V c main_arg5) (fun c' => V c main_v20 (ix2 (0 : Fin 1) c')) :=
  (dat0 V c).arrAt_eq_of_cover 7 _ (fun t _ => flushed_edge V c t) cover

end Cert.KernelIdeal.EdgeRegion

end
-- ==== Proof.NodeRegion.lean ====
import proofs.«160655_j618475290959_2_alg».proof.Proof.Gen.KernelIdeal.Frame
import proofs.«160655_j618475290959_2_alg».proof.Proof.Layers
import proofs.«160655_j618475290959_2_alg».proof.Proof.Payload
import Idealize.ShloMosaic.Lib.Pipeline.Value
import Idealize.ShloMosaic.Lib.ValueIdx

set_option maxRecDepth 16384

noncomputable section

namespace Cert.KernelIdeal.NodeRegion

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The node grid's index maps: at point t the two row-tiled inputs and the output sit at block (t, 0), the weights
    and bias rows at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The body on a block of 5000 rows whose row p is row k of the whole arrays computes entry (k, q) of the node
    perceptron at its entry (p, q). -/
theorem node_block (x0 x1 : Vec Ideal S5000x64 .f32) (x2 : Vec Ideal S128x64 .f32)
    (x3 : Vec Ideal S1x64 .f32) (x4 : Vec Ideal S64x64 .f32) (x5 : Vec Ideal S1x64 .f32)
    (f g : (⟨2, ![50000, 64]⟩ : Shape).Idx → EReal) (W1 : (⟨2, ![128, 64]⟩ : Shape).Idx → EReal)
    (b1 : Fin 64 → EReal) (W2 : (⟨2, ![64, 64]⟩ : Shape).Idx → EReal) (b2 : Fin 64 → EReal)
    (p : Fin 5000) (q : Fin 64) (k : Fin 50000)
    (h0 : ∀ j : Fin 64, x0 (ix2 p j) = f (ix2 k j)) (h1 : ∀ j : Fin 64, x1 (ix2 p j) = g (ix2 k j))
    (h2 : ∀ (a : Fin 128) (c : Fin 64), x2 (ix2 a c) = W1 (ix2 a c))
    (h3 : ∀ c : Fin 64, x3 (ix2 (0 : Fin 1) c) = b1 c) (h4 : ∀ c q' : Fin 64, x4 (ix2 c q') = W2 (ix2 c q'))
    (h5 : ∀ q' : Fin 64, x5 (ix2 (0 : Fin 1) q') = b2 q') :
    k1_pay1 (F := Ideal) x0 x1 x2 x3 x4 x5 (ix2 p q) = Cert.Mlp.nodeEntry f g W1 b1 W2 b2 k q := by
  rw [Cert.KernelIdeal.Payload.k1_pay1_apply]
  unfold Cert.Mlp.nodeEntry
  rw [funext h0, funext h1, funext h3, funext h5,
    (funext fun a => funext fun c => h2 a c : (fun a c => x2 (ix2 a c)) = fun a c => W1 (ix2 a c)),
    (funext fun c => funext fun q' => h4 c q' : (fun c q' => x4 (ix2 c q')) = fun c q' => W2 (ix2 c q'))]

/-- What point t writes back is block t of the node perceptron of the arrays as the grid finds them. -/
theorem flushed_node (c : Dev nD) (t : Fin cfg1.N) :
    (dat1 V c).flushed 6 t = ((cfg1.win 6).blk t).view.read (Elt Ideal)
      (Cert.Mlp.nodeArr (V c main_arg0) (V c main_v32) (V c main_arg7) (fun c' => V c main_v33 (ix2 (0 : Fin 1) c'))
        (V c main_arg9) (fun c' => V c main_v34 (ix2 (0 : Fin 1) c'))) := by
  show (cfg1.win 6).cut (grid1.coords t) ((dat1 V c).after 6 t) = _
  rw [after1_6]
  unfold out1_6
  rw [View.canon_unit_zero hz]
  simp only [View.ld_unit_zero (S := S5000x64) hz, View.ld_unit_zero (S := S128x64) hz, View.ld_unit_zero (S := S1x64) hz, View.ld_unit_zero (S := S64x64) hz]
  funext j
  have hj0 : (j 0).val < 5000 := (j 0).isLt
  have hj1 : (j 1).val < 64 := (j 1).isLt
  have ht : t.val < 10 := t.isLt
  obtain ⟨a00, a01, a10, a11, a20, a21, a30, a31, a40, a41, a50, a51, a60, a61⟩ := idx1 t
  have hx : (win1 6).xinj (grid1.coords t) j = ix2 (⟨(j 0).val, hj0⟩ : Fin 5000) (⟨(j 1).val, hj1⟩ : Fin 64) :=
    funext fun a => by match a with | ⟨0, _⟩ => rfl | ⟨1, _⟩ => rfl
  have he : ((cfg1.win 6).blk t).view.emb j
      = ix2 (⟨t.val * 5000 + (j 0).val, by omega⟩ : Fin 50000) (⟨(j 1).val, hj1⟩ : Fin 64) := by
    funext a; apply Fin.ext
    match a with
    | ⟨0, _⟩ => show win1_6.index t (0 : Fin 2) * 5000 + 1 * (j 0).val = t.val * 5000 + (j 0).val; rw [a60]; omega
    | ⟨1, _⟩ => show win1_6.index t (1 : Fin 2) * 64 + 1 * (j 1).val = (j 1).val; rw [a61]; omega
  show k1_pay1 (iblk1 V c 0 t) (iblk1 V c 1 t) (iblk1 V c 2 t) (iblk1 V c 3 t) (iblk1 V c 4 t) (iblk1 V c 5 t)
      ((win1 6).xinj (grid1.coords t) j)
    = Cert.Mlp.nodeArr (V c main_arg0) (V c main_v32) (V c main_arg7) (fun c' => V c main_v33 (ix2 (0 : Fin 1) c'))
        (V c main_arg9) (fun c' => V c main_v34 (ix2 (0 : Fin 1) c')) (((cfg1.win 6).blk t).view.emb j)
  rw [hx, he, Cert.Mlp.nodeArr_apply]
  refine node_block (iblk1 V c 0 t) (iblk1 V c 1 t) (iblk1 V c 2 t) (iblk1 V c 3 t) (iblk1 V c 4 t) (iblk1 V c 5 t)
    (V c main_arg0) (V c main_v32) (V c main_arg7) (fun c' => V c main_v33 (ix2 (0 : Fin 1) c'))
    (V c main_arg9) (fun c' => V c main_v34 (ix2 (0 : Fin 1) c'))
    (⟨(j 0).val, hj0⟩ : Fin 5000) (⟨(j 1).val, hj1⟩ : Fin 64) (⟨t.val * 5000 + (j 0).val, by omega⟩ : Fin 50000) ?_ ?_ ?_ ?_ ?_ ?_
  · intro j'
    have hj' := j'.isLt
    show V c main_arg0 (((cfg1.win 0).blk t).view.emb (ix2 (⟨(j 0).val, hj0⟩ : Fin 5000) j')) = _
    refine congrArg (V c main_arg0) (funext fun a => Fin.ext ?_)
    match a with
    | ⟨0, _⟩ => show win1_0.index t (0 : Fin 2) * 5000 + 1 * (j 0).val = t.val * 5000 + (j 0).val; rw [a00]; omega
    | ⟨1, _⟩ => show win1_0.index t (1 : Fin 2) * 64 + 1 * j'.val = j'.val; rw [a01]; omega
  · intro j'
    have hj' := j'.isLt
    show V c main_v32 (((cfg1.win 1).blk t).view.emb (ix2 (⟨(j 0).val, hj0⟩ : Fin 5000) j')) = _
    refine congrArg (V c main_v32) (funext fun a => Fin.ext ?_)
    match a with
    | ⟨0, _⟩ => show win1_1.index t (0 : Fin 2) * 5000 + 1 * (j 0).val = t.val * 5000 + (j 0).val; rw [a10]; omega
    | ⟨1, _⟩ => show win1_1.index t (1 : Fin 2) * 64 + 1 * j'.val = j'.val; rw [a11]; omega
  · intro a' c'
    show V c main_arg7 (((cfg1.win 2).blk t).view.emb (ix2 a' c')) = _
    refine congrArg (V c main_arg7) (funext fun a => Fin.ext ?_)
    match a with
    | ⟨0, _⟩ => show win1_2.index t (0 : Fin 2) * 128 + 1 * a'.val = a'.val; rw [a20]; omega
    | ⟨1, _⟩ => show win1_2.index t (1 : Fin 2) * 64 + 1 * c'.val = c'.val; rw [a21]; omega
  · intro c'
    show V c main_v33 (((cfg1.win 3).blk t).view.emb (ix2 (0 : Fin 1) c')) = _
    refine congrArg (V c main_v33) (funext fun a => Fin.ext ?_)
    match a with
    | ⟨0, _⟩ => show win1_3.index t (0 : Fin 2) * 1 + 1 * 0 = 0; rw [a30]
    | ⟨1, _⟩ => show win1_3.index t (1 : Fin 2) * 64 + 1 * c'.val = c'.val; rw [a31]; omega
  · intro c' q'
    show V c main_arg9 (((cfg1.win 4).blk t).view.emb (ix2 c' q')) = _
    refine congrArg (V c main_arg9) (funext fun a => Fin.ext ?_)
    match a with
    | ⟨0, _⟩ => show win1_4.index t (0 : Fin 2) * 64 + 1 * c'.val = c'.val; rw [a40]; omega
    | ⟨1, _⟩ => show win1_4.index t (1 : Fin 2) * 64 + 1 * q'.val = q'.val; rw [a41]; omega
  · intro q'
    show V c main_v34 (((cfg1.win 5).blk t).view.emb (ix2 (0 : Fin 1) q')) = _
    refine congrArg (V c main_v34) (funext fun a => Fin.ext ?_)
    match a with
    | ⟨0, _⟩ => show win1_5.index t (0 : Fin 2) * 1 + 1 * 0 = 0; rw [a50]
    | ⟨1, _⟩ => show win1_5.index t (1 : Fin 2) * 64 + 1 * q'.val = q'.val; rw [a51]; omega

/-- An index of the output array lies in point t's block iff each coordinate lies in the block's range on its axis. -/
theorem mem_blk (t : Fin cfg1.N) (i : S50000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v35).slice (win1_6.rect t)).set ↔ _
  rw [View.set_slice_whole, Rect.mem_set_unit]
  exact Iff.rfl

/-- The ten blocks of 5000 rows tile the 50000 rows: row r lies in block r / 5000. -/
theorem cover (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  have hN : cfg1.N = 10 := N_1
  have hlt : (i 0).val / 5000 < cfg1.N := by rw [hN]; omega
  obtain ⟨-, -, -, -, -, -, -, -, -, -, -, -, a60, a61⟩ := idx1 ⟨(i 0).val / 5000, hlt⟩
  refine ⟨⟨(i 0).val / 5000, hlt⟩, flush1_6 _, ?_⟩
  rw [mem_blk]
  intro a
  match a with
  | ⟨0, _⟩ =>
    show win1_6.index ⟨(i 0).val / 5000, hlt⟩ (0 : Fin 2) * 5000 ≤ (i 0).val
      ∧ (i 0).val < win1_6.index ⟨(i 0).val / 5000, hlt⟩ (0 : Fin 2) * 5000 + 5000
    rw [a60]
    show (i 0).val / 5000 * 5000 ≤ (i 0).val ∧ (i 0).val < (i 0).val / 5000 * 5000 + 5000
    omega
  | ⟨1, _⟩ =>
    show win1_6.index ⟨(i 0).val / 5000, hlt⟩ (1 : Fin 2) * 64 ≤ (i 1).val
      ∧ (i 1).val < win1_6.index ⟨(i 0).val / 5000, hlt⟩ (1 : Fin 2) * 64 + 64
    rw [a61]
    omega

/-- The output array after the grid: the node perceptron of the arrays as the grid finds them. -/
theorem node_array (c : Dev nD) :
    (dat1 V c).arrAt 6 cfg1.N
      = Cert.Mlp.nodeArr (V c main_arg0) (V c main_v32) (V c main_arg7) (fun c' => V c main_v33 (ix2 (0 : Fin 1) c'))
        (V c main_arg9) (fun c' => V c main_v34 (ix2 (0 : Fin 1) c')) :=
  (dat1 V c).arrAt_eq_of_cover 6 _ (fun t _ => flushed_node V c t) cover

end Cert.KernelIdeal.NodeRegion

end
-- ==== Proof.LibIndexOps.lean ====
/-
  Rows of a matrix (or entries of a vector) picked and accumulated by a list of integer positions, read at an index.

  A gather "x[idx]" along the leading axis reads, for list entry e, the row of x at position idx e, the position read as
  a signed integer and clamped into the rows of x. An accumulating scatter "y.at[idx].add(u)" adds, into row n of y, every
  list entry e's update whose position idx e, read as a signed integer and NOT clamped, is exactly n; an entry whose
  position is negative or past the last row contributes nothing. At the ideal values the accumulation is the exact sum,
  so the scattered array at (n, q) is y (n, q) plus the sum over the list entries e with idx e = n of u (e, q).
  Stated for the dimension numbers jax prints for these two operations on a matrix and on a vector, with the list of
  positions given as an [M, 1] array, for any extents.
-/
import Idealize.ShloMosaic.Lib.ValueIdx
import Idealize.ShloMosaic.PureOps.Ideal.Laws

noncomputable section

namespace Cert.LibIndexOps

open Idealize.ShloMosaic Idealize.ShloMosaic.ValueIdx
open scoped BigOperators

variable {α : Type} {N M D w : Nat}

/-! ## Gathering rows of a matrix -/

/-- The record of "x[idx]" for a matrix x : [N, D] and positions [M, 1]: whole rows, the leading axis collapsed. -/
abbrev rowsGather (N M D : Nat) (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry (e, q) of the gathered rows: x at row "position e, clamped" and column q. -/
theorem gather_rows_apply (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (q : Fin D) :
    Host.gather (rowsGather N M D wf) x idx (ix2 e q)
      = x (ix2 (⟨min (idx (ix2 e (0 : Fin 1))).toInt.toNat (N - 1), by omega⟩ : Fin N) q) := by
  unfold Host.gather
  congr 1
  funext a
  refine Fin.ext ?_
  show (rowsGather N M D wf).start (ix2 e q) idx a + (rowsGather N M D wf).batchCoord (ix2 e q) a
    + (rowsGather N M D wf).offCoord (ix2 e q) a = _
  rw [GatherDims.batchCoord_eq_zero _ _ _ List.not_mem_nil]
  have key0 : (rowsGather N M D wf).start (ix2 e q) idx (0 : Fin 2) + 0 + (rowsGather N M D wf).offCoord (ix2 e q) (0 : Fin 2)
      = min (idx (ix2 e (0 : Fin 1))).toInt.toNat (N - 1) := by
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N M D wf).startIndexMap from List.mem_singleton.mpr rfl)]
    have hsi : (rowsGather N M D wf).siIdx (ix2 e q) ⟨List.idxOf (0 : Fin 2) (rowsGather N M D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have key1 : (rowsGather N M D wf).start (ix2 e q) idx (1 : Fin 2) + 0 + (rowsGather N M D wf).offCoord (ix2 e q) (1 : Fin 2)
      = q.val := by
    have hs : (rowsGather N M D wf).start (ix2 e q) idx (1 : Fin 2) = 0 := by
      unfold GatherDims.start
      rw [dif_neg (show (1 : Fin 2) ∉ ([0] : List (Fin 2)) by decide)]
    have ho : (rowsGather N M D wf).offCoord (ix2 e q) (1 : Fin 2) = q.val := by
      unfold GatherDims.offCoord
      rw [dif_pos ((GatherDims.mem_sKept _ _).2 ⟨(show (1 : Fin 2) ∉ ([0] : List (Fin 2)) by decide), List.not_mem_nil⟩)]
      rfl
    rw [hs, ho]; omega
  match a with
  | ⟨0, _⟩ => exact key0
  | ⟨1, _⟩ => exact key1

/-! ## Gathering entries of a vector -/

/-- The record of "x[idx]" for a vector x : [N] and positions [M, 1]. -/
abbrev vecGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry e of the gathered vector: x at "position e, clamped". -/
theorem gather_vec_apply (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecGather N M wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGather N M wf).start (ix1 e) idx 0 + (vecGather N M wf).batchCoord (ix1 e) 0 + (vecGather N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N M wf).startIndexMap from List.mem_singleton.mpr rfl)]
  have hsi : (vecGather N M wf).siIdx (ix1 e) ⟨List.idxOf (0 : Fin 1) (vecGather N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Accumulating rows into a matrix -/

/-- The record of "y.at[idx].add(u)" for a matrix y : [N, D], positions [M, 1] and updates u : [M, D]. -/
abbrev rowsScatter (N M D : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Update (e, q') lands on entry (n, q) exactly when position e is n and the columns agree. -/
theorem rows_lands_iff (wf : ScatterDims.WF ⟨2, ![N, D]⟩ ⟨2, ![M, 1]⟩ ⟨2, ![M, D]⟩ [1] [0] [0] 1)
    (idx : IVec ⟨2, ![M, 1]⟩ w) (e : Fin M) (q' : Fin D) (n : Fin N) (q : Fin D) :
    (rowsScatter N M D wf).resultIdx? (ix2 e q') idx = some (ix2 n q)
      ↔ (idx (ix2 e (0 : Fin 1))).toInt = (n.val : Int) ∧ q' = q := by
  have s0 : (rowsScatter N M D wf).start (ix2 e q') idx (0 : Fin 2) = (idx (ix2 e (0 : Fin 1))).toInt := by
    unfold ScatterDims.start
    rw [dif_pos (show (0 : Fin 2) ∈ (rowsScatter N M D wf).scatterDimsToOperandDims from List.mem_singleton.mpr rfl)]
    congr 2
    funext b; refine Fin.ext ?_
    match b with
    | ⟨0, _⟩ => rfl
    | ⟨1, _⟩ => rfl
  have s1 : (rowsScatter N M D wf).start (ix2 e q') idx (1 : Fin 2) = 0 := by
    unfold ScatterDims.start
    rw [dif_neg (show (1 : Fin 2) ∉ ([0] : List (Fin 2)) by decide)]
  have w0 : (rowsScatter N M D wf).window (ix2 e q') (0 : Fin 2) = 0 := by
    unfold ScatterDims.window
    rw [dif_neg (show (0 : Fin 2) ∉ (rowsScatter N M D wf).sKept from (by decide : (0 : Fin 2) ∉ (List.finRange 2).filter (· ∉ ([0] : List (Fin 2)))))]
  have w1 : (rowsScatter N M D wf).window (ix2 e q') (1 : Fin 2) = q'.val := by
    unfold ScatterDims.window
    rw [dif_pos (show (1 : Fin 2) ∈ (rowsScatter N M D wf).sKept from (by decide : (1 : Fin 2) ∈ (List.finRange 2).filter (· ∉ ([0] : List (Fin 2)))))]
    rfl
  have hn := n.isLt
  have hq := q.isLt
  have hq' := q'.isLt
  unfold ScatterDims.resultIdx?
  split
  · next h =>
    rw [Option.some.injEq]
    constructor
    · intro hf
      have h0 : ((rowsScatter N M D wf).start (ix2 e q') idx (0 : Fin 2) + ((rowsScatter N M D wf).window (ix2 e q') (0 : Fin 2) : Int)).toNat = n.val :=
        congrArg (fun f : (⟨2, ![N, D]⟩ : Shape).Idx => (f 0).val) hf
      have h1 : ((rowsScatter N M D wf).start (ix2 e q') idx (1 : Fin 2) + ((rowsScatter N M D wf).window (ix2 e q') (1 : Fin 2) : Int)).toNat = q.val :=
        congrArg (fun f : (⟨2, ![N, D]⟩ : Shape).Idx => (f 1).val) hf
      have hh := (h 0).1
      rw [s0, w0] at h0 hh
      rw [s1, w1] at h1
      exact ⟨by omega, Fin.ext (by omega)⟩
    · rintro ⟨h0, rfl⟩
      funext a; refine Fin.ext ?_
      match a with
      | ⟨0, _⟩ =>
        show ((rowsScatter N M D wf).start (ix2 e q') idx (0 : Fin 2) + ((rowsScatter N M D wf).window (ix2 e q') (0 : Fin 2) : Int)).toNat = n.val
        rw [s0, w0]; omega
      | ⟨1, _⟩ =>
        show ((rowsScatter N M D wf).start (ix2 e q') idx (1 : Fin 2) + ((rowsScatter N M D wf).window (ix2 e q') (1 : Fin 2) : Int)).toNat = q'.val
        rw [s1, w1]; omega
  · next h =>
    constructor
    · intro hf; exact absurd hf (by simp)
    · rintro ⟨h0, rfl⟩
      exfalso; apply h; intro a
      match a with
      | ⟨0, _⟩ =>
        show 0 ≤ (rowsScatter N M D wf).start (ix2 e q') idx (0 : Fin 2) + ((rowsScatter N M D wf).window (ix2 e q') (0 : Fin 2) : Int)
          ∧ (rowsScatter N M D wf).start (ix2 e q') idx (0 : Fin 2) + ((rowsScatter N M D wf).window (ix2 e q') (0 : Fin 2) : Int) < (N : Int)
        rw [s0, w0]; omega
      | ⟨1, _⟩ =>
        show 0 ≤ (rowsScatter N M D wf).start (ix2 e q') idx (1 : Fin 2) + ((rowsScatter N M D wf).window (ix2 e q') (1 : Fin 2) : Int)
          ∧ (rowsScatter N M D wf).start (ix2 e q') idx (1 : Fin 2) + ((rowsScatter N M D wf).window (ix2 e q') (1 : Fin 2) : Int) < (D : Int)
        rw [s1, w1]; omega

/-- Entry (n, q) of the accumulated matrix at the ideal values: y (n, q) plus the updates of the list entries whose
    position is n, at column q. -/
theorem scatterAdd_rows_apply (wf : ScatterDims.WF ⟨2, ![N, D]⟩ ⟨2, ![M, 1]⟩ ⟨2, ![M, D]⟩ [1] [0] [0] 1)
    (y : FVec Ideal ⟨2, ![N, D]⟩ .f32) (idx : IVec ⟨2, ![M, 1]⟩ w) (u : FVec Ideal ⟨2, ![M, D]⟩ .f32) (n : Fin N) (q : Fin D) :
    Host.scatterAdd (rowsScatter N M D wf) y idx u (ix2 n q)
      = y (ix2 n q) + ∑ e : Fin M, if (idx (ix2 e (0 : Fin 1))).toInt = (n.val : Int) then u (ix2 e q) else 0 := by
  show Ideal.hostScatterAdd (rowsScatter N M D wf) y idx u (ix2 n q) = _
  unfold Ideal.hostScatterAdd
  congr 1
  rw [Finset.sum_filter, sum_idx2]
  refine Finset.sum_congr rfl fun e _ => ?_
  simp only [rows_lands_iff]
  by_cases h : (idx (ix2 e (0 : Fin 1))).toInt = (n.val : Int)
  · simp only [h, true_and, if_true]
    rw [Finset.sum_ite_eq' Finset.univ q (fun q' => u (ix2 e q'))]
    simp
  · simp [h]

/-! ## Accumulating entries into a vector -/

/-- The record of "y.at[idx].add(u)" for a vector y : [N], positions [M, 1] and updates u : [M]. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update e lands on entry n exactly when position e is n. -/
theorem vec_lands_iff (wf : ScatterDims.WF ⟨1, ![N]⟩ ⟨2, ![M, 1]⟩ ⟨1, ![M]⟩ [] [0] [0] 1)
    (idx : IVec ⟨2, ![M, 1]⟩ w) (e : Fin M) (n : Fin N) :
    (vecScatter N M wf).resultIdx? (ix1 e) idx = some (ix1 n) ↔ (idx (ix2 e (0 : Fin 1))).toInt = (n.val : Int) := by
  have s0 : (vecScatter N M wf).start (ix1 e) idx (0 : Fin 1) = (idx (ix2 e (0 : Fin 1))).toInt := by
    unfold ScatterDims.start
    rw [dif_pos (show (0 : Fin 1) ∈ (vecScatter N M wf).scatterDimsToOperandDims from List.mem_singleton.mpr rfl)]
    congr 2
    funext b; refine Fin.ext ?_
    match b with
    | ⟨0, _⟩ => rfl
    | ⟨1, _⟩ => rfl
  have w0 : (vecScatter N M wf).window (ix1 e) (0 : Fin 1) = 0 := by
    unfold ScatterDims.window
    rw [dif_neg (show (0 : Fin 1) ∉ (vecScatter N M wf).sKept from (by decide : (0 : Fin 1) ∉ (List.finRange 1).filter (· ∉ ([0] : List (Fin 1)))))]
  have hn := n.isLt
  unfold ScatterDims.resultIdx?
  split
  · next h =>
    rw [Option.some.injEq]
    constructor
    · intro hf
      have h0 : ((vecScatter N M wf).start (ix1 e) idx (0 : Fin 1) + ((vecScatter N M wf).window (ix1 e) (0 : Fin 1) : Int)).toNat = n.val :=
        congrArg (fun f : (⟨1, ![N]⟩ : Shape).Idx => (f 0).val) hf
      have hh := (h 0).1
      rw [s0, w0] at h0 hh
      omega
    · intro h0
      funext a; refine Fin.ext ?_
      obtain rfl : a = 0 := Subsingleton.elim _ _
      show ((vecScatter N M wf).start (ix1 e) idx (0 : Fin 1) + ((vecScatter N M wf).window (ix1 e) (0 : Fin 1) : Int)).toNat = n.val
      rw [s0, w0]; omega
  · next h =>
    constructor
    · intro hf; exact absurd hf (by simp)
    · intro h0
      exfalso; apply h; intro a
      obtain rfl : a = 0 := Subsingleton.elim _ _
      show 0 ≤ (vecScatter N M wf).start (ix1 e) idx (0 : Fin 1) + ((vecScatter N M wf).window (ix1 e) (0 : Fin 1) : Int)
        ∧ (vecScatter N M wf).start (ix1 e) idx (0 : Fin 1) + ((vecScatter N M wf).window (ix1 e) (0 : Fin 1) : Int) < (N : Int)
      rw [s0, w0]; omega

/-- Entry n of the accumulated vector at the ideal values: y n plus the updates of the list entries whose position is n. -/
theorem scatterAdd_vec_apply (wf : ScatterDims.WF ⟨1, ![N]⟩ ⟨2, ![M, 1]⟩ ⟨1, ![M]⟩ [] [0] [0] 1)
    (y : FVec Ideal ⟨1, ![N]⟩ .f32) (idx : IVec ⟨2, ![M, 1]⟩ w) (u : FVec Ideal ⟨1, ![M]⟩ .f32) (n : Fin N) :
    Host.scatterAdd (vecScatter N M wf) y idx u (ix1 n)
      = y (ix1 n) + ∑ e : Fin M, if (idx (ix2 e (0 : Fin 1))).toInt = (n.val : Int) then u (ix1 e) else 0 := by
  show Ideal.hostScatterAdd (vecScatter N M wf) y idx u (ix1 n) = _
  unfold Ideal.hostScatterAdd
  congr 1
  rw [Finset.sum_filter]
  have hsum : ∀ f : (⟨1, ![M]⟩ : Shape).Idx → EReal, ∑ j, f j = ∑ e : Fin M, f (ix1 e) := fun f =>
    (Equiv.sum_comp (⟨fun e => ix1 e, fun j => j 0, fun _ => rfl, fun j => (eq_ix1 j).symm⟩ : Fin M ≃ (⟨1, ![M]⟩ : Shape).Idx) f).symm
  rw [hsum]
  refine Finset.sum_congr rfl fun e _ => ?_
  simp only [vec_lands_iff]

end Cert.LibIndexOps

end
-- ==== Proof.LibConcatCols.lean ====
/-
  Two matrices with the same number of rows laid side by side (a concatenation along axis 1) read at an entry:
  entry (p, c) of the joined n × t matrix is entry (p, c) of the left n × a piece when c < a, and entry (p, c - a)
  of the right n × b piece otherwise (a + b = t). A consequence: if row p of two pieces agrees, column by column,
  with row p' of two other pieces of the same widths, then row p of the first join is row p' of the second.
-/
import Idealize.ShloMosaic.Lib.Pipeline.Value
import Idealize.ShloMosaic.Lib.ValueIdx

noncomputable section

namespace Cert.LibConcatCols

open Idealize.ShloMosaic Idealize.ShloMosaic.ValueIdx

variable {α : Type} {n a b t : Nat}

/-- Entry (p, c) of two pieces joined along the columns: the left piece's entry when c is one of its columns,
    otherwise the right piece's entry, a columns further left. -/
theorem concat_cols_apply (hab : a + b = t)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, t]⟩ 1) (p : Fin n) (c : Fin t) :
    concatenate (⟨2, ![n, t]⟩ : Shape) 1 [⟨⟨2, ![n, a]⟩, x⟩, ⟨⟨2, ![n, b]⟩, y⟩] h (ix2 p c)
      = if hc : c.val < a then x (ix2 p ⟨c.val, hc⟩) else y (ix2 p ⟨c.val - a, by omega⟩) := by
  split
  · next hc =>
    exact concatenate_pair_apply_left (1 : Fin 2) x y h (ix2 p c) rfl (ix2 p ⟨c.val, hc⟩)
      (fun d => match d with | ⟨0, _⟩ => rfl | ⟨1, _⟩ => rfl)
  · next hc =>
    exact concatenate_pair_apply_right (1 : Fin 2) x y h (ix2 p c) rfl rfl (ix2 p ⟨c.val - a, by omega⟩)
      (fun d hd => match d, hd with
        | ⟨0, _⟩, _ => rfl
        | ⟨1, _⟩, hd => absurd rfl hd)
      (by show (c.val - a) + a = c.val; omega)

/-- Rows that agree piece by piece agree after the pieces are joined: if row p of x is row p' of x' and row p of y is
    row p' of y', then row p of [x | y] is row p' of [x' | y']. -/
theorem concat_cols_row_congr {n' : Nat} (hab : a + b = t)
    (x : (⟨2, ![n, a]⟩ : Shape).Idx → α) (y : (⟨2, ![n, b]⟩ : Shape).Idx → α)
    (x' : (⟨2, ![n', a]⟩ : Shape).Idx → α) (y' : (⟨2, ![n', b]⟩ : Shape).Idx → α)
    (h : Shape.Concatenates [(⟨2, ![n, a]⟩ : Shape), ⟨2, ![n, b]⟩] ⟨2, ![n, t]⟩ 1)
    (h' : Shape.Concatenates [(⟨2, ![n', a]⟩ : Shape), ⟨2, ![n', b]⟩] ⟨2, ![n', t]⟩ 1)
    (p : Fin n) (p' : Fin n')
    (hx : ∀ c : Fin a, x (ix2 p c) = x' (ix2 p' c)) (hy : ∀ c : Fin b, y (ix2 p c) = y' (ix2 p' c)) (c : Fin t) :
    concatenate (⟨2, ![n, t]⟩ : Shape) 1 [⟨⟨2, ![n, a]⟩, x⟩, ⟨⟨2, ![n, b]⟩, y⟩] h (ix2 p c)
      = concatenate (⟨2, ![n', t]⟩ : Shape) 1 [⟨⟨2, ![n', a]⟩, x'⟩, ⟨⟨2, ![n', b]⟩, y'⟩] h' (ix2 p' c) := by
  rw [concat_cols_apply hab, concat_cols_apply hab]
  split
  · exact hx _
  · exact hy _

end Cert.LibConcatCols
-- ==== Proof.ScatterJoin.lean ====
/-
  One accumulation over 65 columns against two accumulations over 64 columns and one column.

  Every edge e carries a message row E e (64 numbers) and a target position idx e. The first program lays a column of
  ones beside the messages, accumulates the 65-column rows into a 65-column array of zeros (row n receives every edge
  whose position is n), and then reads columns 0..63 as the summed messages and column 64 as the number of edges per
  target. The second program accumulates the 64 message columns and the single column of ones separately, each into
  zeros. An accumulation acts column by column: entry (n, q) of the result is the start value plus the sum, over the
  edges whose position is n, of the update's entry (e, q). So columns 0..63 of the joint accumulation are the
  accumulation of the messages, and column 64 is the accumulation of the ones. The aggregates divided by
  max(count, 1) are therefore the same array.
-/
import proofs.«160655_j618475290959_2_alg».proof.Proof.Gen.KernelIdeal
import proofs.«160655_j618475290959_2_alg».proof.Proof.Gen.ReferenceIdeal
import proofs.«160655_j618475290959_2_alg».proof.Proof.LibIndexOps
import proofs.«160655_j618475290959_2_alg».proof.Proof.LibConcatCols
import Idealize.ShloMosaic.Lib.ValueIdx
import Idealize.ShloMosaic.Lib.Pipeline.Value
import Idealize.ShloMosaic.PureOps.Ideal.Laws

noncomputable section

namespace Cert.ScatterJoin

open Idealize.ShloMosaic Idealize.ShloMosaic.ValueIdx
open scoped BigOperators

/-! ## A scalar word spread over a shape -/

/-- A scalar constant broadcast to any shape reads the constant's value at every index. -/
theorem splat_apply {t : Shape} (h : (⟨0, ![]⟩ : Shape).BroadcastsInDim t (![] : Fin 0 → Fin t.rank)) (b : BitVec 32)
    (j : t.Idx) :
    broadcastInDim t (![] : Fin 0 → Fin t.rank) h (constant (F := Ideal) (⟨0, ![]⟩ : Shape) .f32 b) j = Ideal.ofBits .f32 b :=
  broadcastInDim_apply (![] : Fin 0 → Fin t.rank) h (constant (F := Ideal) (⟨0, ![]⟩ : Shape) .f32 b) j
    (fun a => a.elim0) (fun a => a.elim0)

/-! ## The joint accumulation, column by column (any number of targets N and of edges M) -/

section Columns
variable {N M w : Nat}

/-- A message column q of the joint accumulation [E | o] into y65 is column q of the accumulation of E into y64,
    when the two start arrays agree on that entry. -/
theorem joined_left_apply
    (wf65 : ScatterDims.WF ⟨2, ![N, 65]⟩ ⟨2, ![M, 1]⟩ ⟨2, ![M, 65]⟩ [1] [0] [0] 1)
    (wf64 : ScatterDims.WF ⟨2, ![N, 64]⟩ ⟨2, ![M, 1]⟩ ⟨2, ![M, 64]⟩ [1] [0] [0] 1)
    (hc : Shape.Concatenates [(⟨2, ![M, 64]⟩ : Shape), ⟨2, ![M, 1]⟩] ⟨2, ![M, 65]⟩ 1)
    (y65 : FVec Ideal ⟨2, ![N, 65]⟩ .f32) (y64 : FVec Ideal ⟨2, ![N, 64]⟩ .f32)
    (idx : IVec ⟨2, ![M, 1]⟩ w) (E : FVec Ideal ⟨2, ![M, 64]⟩ .f32) (o : FVec Ideal ⟨2, ![M, 1]⟩ .f32)
    (n : Fin N) (q : Fin 64) (q' : Fin 65) (hq : q'.val = q.val)
    (hy : y65 (ix2 n q') = y64 (ix2 n q)) :
    Host.scatterAdd (Cert.LibIndexOps.rowsScatter N M 65 wf65) y65 idx
        (concatenate (⟨2, ![M, 65]⟩ : Shape) 1 [⟨⟨2, ![M, 64]⟩, E⟩, ⟨⟨2, ![M, 1]⟩, o⟩] hc) (ix2 n q')
      = Host.scatterAdd (Cert.LibIndexOps.rowsScatter N M 64 wf64) y64 idx E (ix2 n q) := by
  refine (Cert.LibIndexOps.scatterAdd_rows_apply wf65 y65 idx _ n q').trans ?_
  refine Eq.trans ?_ (Cert.LibIndexOps.scatterAdd_rows_apply wf64 y64 idx E n q).symm
  refine congrArg₂ (· + ·) hy (Finset.sum_congr rfl fun e _ => ?_)
  have hlt : q'.val < 64 := by have := q.isLt; omega
  have hcol : concatenate (⟨2, ![M, 65]⟩ : Shape) 1 [⟨⟨2, ![M, 64]⟩, E⟩, ⟨⟨2, ![M, 1]⟩, o⟩] hc (ix2 e q') = E (ix2 e q) := by
    refine (Cert.LibConcatCols.concat_cols_apply (by norm_num : 64 + 1 = 65) E o hc e q').trans ?_
    rw [dif_pos hlt]
    exact congrArg (fun c : Fin 64 => E (ix2 e c)) (Fin.ext hq)
  rw [hcol]

/-- The last column of the joint accumulation [E | o] into y65 is the accumulation of the one column o into y1,
    when the two start arrays agree on that entry. -/
theorem joined_right_apply
    (wf65 : ScatterDims.WF ⟨2, ![N, 65]⟩ ⟨2, ![M, 1]⟩ ⟨2, ![M, 65]⟩ [1] [0] [0] 1)
    (wf1 : ScatterDims.WF ⟨2, ![N, 1]⟩ ⟨2, ![M, 1]⟩ ⟨2, ![M, 1]⟩ [1] [0] [0] 1)
    (hc : Shape.Concatenates [(⟨2, ![M, 64]⟩ : Shape), ⟨2, ![M, 1]⟩] ⟨2, ![M, 65]⟩ 1)
    (y65 : FVec Ideal ⟨2, ![N, 65]⟩ .f32) (y1 : FVec Ideal ⟨2, ![N, 1]⟩ .f32)
    (idx : IVec ⟨2, ![M, 1]⟩ w) (E : FVec Ideal ⟨2, ![M, 64]⟩ .f32) (o : FVec Ideal ⟨2, ![M, 1]⟩ .f32)
    (n : Fin N) (q' : Fin 65) (hq : q'.val = 64)
    (hy : y65 (ix2 n q') = y1 (ix2 n (0 : Fin 1))) :
    Host.scatterAdd (Cert.LibIndexOps.rowsScatter N M 65 wf65) y65 idx
        (concatenate (⟨2, ![M, 65]⟩ : Shape) 1 [⟨⟨2, ![M, 64]⟩, E⟩, ⟨⟨2, ![M, 1]⟩, o⟩] hc) (ix2 n q')
      = Host.scatterAdd (Cert.LibIndexOps.rowsScatter N M 1 wf1) y1 idx o (ix2 n (0 : Fin 1)) := by
  refine (Cert.LibIndexOps.scatterAdd_rows_apply wf65 y65 idx _ n q').trans ?_
  refine Eq.trans ?_ (Cert.LibIndexOps.scatterAdd_rows_apply wf1 y1 idx o n (0 : Fin 1)).symm
  refine congrArg₂ (· + ·) hy (Finset.sum_congr rfl fun e _ => ?_)
  have hge : ¬ q'.val < 64 := by omega
  have hcol : concatenate (⟨2, ![M, 65]⟩ : Shape) 1 [⟨⟨2, ![M, 64]⟩, E⟩, ⟨⟨2, ![M, 1]⟩, o⟩] hc (ix2 e q') = o (ix2 e (0 : Fin 1)) := by
    refine (Cert.LibConcatCols.concat_cols_apply (by norm_num : 64 + 1 = 65) E o hc e q').trans ?_
    rw [dif_neg hge]
    exact congrArg (fun c : Fin 1 => o (ix2 e c)) (Fin.ext (by show q'.val - 64 = 0; omega))
  rw [hcol]

end Columns

/-! ## The two programs' arrays -/

/-- The first program's joint accumulation: [E | ones] accumulated by position into a 50000 × 65 array of zeros. -/
abbrev joint (E : FVec Ideal Cert.KernelIdeal.S800000x64 .f32) (idx : IVec Cert.KernelIdeal.S800000x1 32) :
    FVec Ideal Cert.KernelIdeal.S50000x65 .f32 :=
  Host.scatterAdd Cert.KernelIdeal.scatter_S50000x65_S800000x1_S800000x65_1_0_0_1
    (broadcastInDim Cert.KernelIdeal.S50000x65 ![] Cert.KernelIdeal.Facts₀.bcast_S_S50000x65 (constant (F := Ideal) Cert.KernelIdeal.S_ .f32 0x00000000#32)) idx
    (concatenate Cert.KernelIdeal.S800000x65 1 [⟨Cert.KernelIdeal.S800000x64, E⟩, ⟨Cert.KernelIdeal.S800000x1, broadcastInDim Cert.KernelIdeal.S800000x1 ![] Cert.KernelIdeal.Facts₀.bcast_S_S800000x1 (constant (F := Ideal) Cert.KernelIdeal.S_ .f32 0x3F800000#32)⟩] Cert.KernelIdeal.Facts₀.concatenates_S800000x64_S800000x1_S800000x65_d1)

/-- Columns 0..63 of the joint accumulation are the accumulation of the messages alone. -/
theorem sums_eq (E : FVec Ideal Cert.KernelIdeal.S800000x64 .f32) (idx : IVec Cert.KernelIdeal.S800000x1 32) :
    (extractStridedSlice Cert.KernelIdeal.S50000x64 ![0, 0] (joint E idx) Cert.KernelIdeal.Facts₀.slices_S50000x65_S50000x64_0_0
        : FVec Ideal Cert.KernelIdeal.S50000x64 .f32)
      = Host.scatterAdd Cert.ReferenceIdeal.scatter_S50000x64_S800000x1_S800000x64_1_0_0_1
          (broadcastInDim Cert.ReferenceIdeal.S50000x64 ![] Cert.ReferenceIdeal.Facts₀.bcast_S_S50000x64 (constant (F := Ideal) Cert.ReferenceIdeal.S_ .f32 0x00000000#32)) idx E := by
  funext i
  obtain ⟨n, q, rfl⟩ : ∃ (n : Fin 50000) (q : Fin 64), i = ix2 n q := ⟨i 0, i 1, eq_ix2 i⟩
  refine (extractStridedSlice_apply ![0, 0] (joint E idx) Cert.KernelIdeal.Facts₀.slices_S50000x65_S50000x64_0_0 (ix2 n q)
    (ix2 n (⟨q.val, by have := q.isLt; omega⟩ : Fin 65)) (fun a => match a with
      | ⟨0, _⟩ => (Nat.zero_add _).symm
      | ⟨1, _⟩ => (Nat.zero_add _).symm)).trans ?_
  exact joined_left_apply Cert.KernelIdeal.scatter_S50000x65_S800000x1_S800000x65_1_0_0_1.wf
    Cert.ReferenceIdeal.scatter_S50000x64_S800000x1_S800000x64_1_0_0_1.wf _ _ _ idx E _ n q _ rfl
    ((splat_apply _ _ _).trans (splat_apply _ _ _).symm)

/-- Column 64 of the joint accumulation is the accumulation of the column of ones alone. -/
theorem counts_eq (E : FVec Ideal Cert.KernelIdeal.S800000x64 .f32) (idx : IVec Cert.KernelIdeal.S800000x1 32) :
    (extractStridedSlice Cert.KernelIdeal.S50000x1 ![0, 64] (joint E idx) Cert.KernelIdeal.Facts₀.slices_S50000x65_S50000x1_0_64
        : FVec Ideal Cert.KernelIdeal.S50000x1 .f32)
      = Host.scatterAdd Cert.ReferenceIdeal.scatter_S50000x1_S800000x1_S800000x1_1_0_0_1
          (broadcastInDim Cert.ReferenceIdeal.S50000x1 ![] Cert.ReferenceIdeal.Facts₀.bcast_S_S50000x1 (constant (F := Ideal) Cert.ReferenceIdeal.S_ .f32 0x00000000#32)) idx
          (broadcastInDim Cert.ReferenceIdeal.S800000x1 ![] Cert.ReferenceIdeal.Facts₀.bcast_S_S800000x1 (constant (F := Ideal) Cert.ReferenceIdeal.S_ .f32 0x3F800000#32)) := by
  funext i
  obtain ⟨n, q, rfl⟩ : ∃ (n : Fin 50000) (q : Fin 1), i = ix2 n q := ⟨i 0, i 1, eq_ix2 i⟩
  obtain rfl : q = 0 := Subsingleton.elim _ _
  refine (extractStridedSlice_apply ![0, 64] (joint E idx) Cert.KernelIdeal.Facts₀.slices_S50000x65_S50000x1_0_64 (ix2 n (0 : Fin 1))
    (ix2 n (⟨64, by norm_num⟩ : Fin 65)) (fun a => match a with
      | ⟨0, _⟩ => (Nat.zero_add _).symm
      | ⟨1, _⟩ => rfl)).trans ?_
  exact joined_right_apply Cert.KernelIdeal.scatter_S50000x65_S800000x1_S800000x65_1_0_0_1.wf
    Cert.ReferenceIdeal.scatter_S50000x1_S800000x1_S800000x1_1_0_0_1.wf _ _ _ idx E _ n _ rfl
    ((splat_apply _ _ _).trans (splat_apply _ _ _).symm)

/-! ## The normalised aggregates -/

/-- The summed messages divided by max(count, 1): the first program's array, from one joint accumulation, is the second
    program's, from two separate accumulations. -/
theorem aggn_eq (E : FVec Ideal Cert.KernelIdeal.S800000x64 .f32) (idx : IVec Cert.KernelIdeal.S800000x1 32) :
    (Host.divf
      (extractStridedSlice Cert.KernelIdeal.S50000x64 ![0, 0]
        (Host.scatterAdd Cert.KernelIdeal.scatter_S50000x65_S800000x1_S800000x65_1_0_0_1
          (broadcastInDim Cert.KernelIdeal.S50000x65 ![] Cert.KernelIdeal.Facts₀.bcast_S_S50000x65 (constant (F := Ideal) Cert.KernelIdeal.S_ .f32 0x00000000#32)) idx
          (concatenate Cert.KernelIdeal.S800000x65 1 [⟨Cert.KernelIdeal.S800000x64, E⟩, ⟨Cert.KernelIdeal.S800000x1, broadcastInDim Cert.KernelIdeal.S800000x1 ![] Cert.KernelIdeal.Facts₀.bcast_S_S800000x1 (constant (F := Ideal) Cert.KernelIdeal.S_ .f32 0x3F800000#32)⟩] Cert.KernelIdeal.Facts₀.concatenates_S800000x64_S800000x1_S800000x65_d1))
        Cert.KernelIdeal.Facts₀.slices_S50000x65_S50000x64_0_0)
      (broadcastInDim Cert.KernelIdeal.S50000x64 ![0, 1] Cert.KernelIdeal.Facts₀.bcast_S50000x1_S50000x64_0_1
        (maximumf
          (extractStridedSlice Cert.KernelIdeal.S50000x1 ![0, 64]
            (Host.scatterAdd Cert.KernelIdeal.scatter_S50000x65_S800000x1_S800000x65_1_0_0_1
              (broadcastInDim Cert.KernelIdeal.S50000x65 ![] Cert.KernelIdeal.Facts₀.bcast_S_S50000x65 (constant (F := Ideal) Cert.KernelIdeal.S_ .f32 0x00000000#32)) idx
              (concatenate Cert.KernelIdeal.S800000x65 1 [⟨Cert.KernelIdeal.S800000x64, E⟩, ⟨Cert.KernelIdeal.S800000x1, broadcastInDim Cert.KernelIdeal.S800000x1 ![] Cert.KernelIdeal.Facts₀.bcast_S_S800000x1 (constant (F := Ideal) Cert.KernelIdeal.S_ .f32 0x3F800000#32)⟩] Cert.KernelIdeal.Facts₀.concatenates_S800000x64_S800000x1_S800000x65_d1))
            Cert.KernelIdeal.Facts₀.slices_S50000x65_S50000x1_0_64)
          (broadcastInDim Cert.KernelIdeal.S50000x1 ![] Cert.KernelIdeal.Facts₀.bcast_S_S50000x1 (constant (F := Ideal) Cert.KernelIdeal.S_ .f32 0x3F800000#32)))) : FVec Ideal Cert.KernelIdeal.S50000x64 .f32)
    = Host.divf
        (Host.scatterAdd Cert.ReferenceIdeal.scatter_S50000x64_S800000x1_S800000x64_1_0_0_1
          (broadcastInDim Cert.ReferenceIdeal.S50000x64 ![] Cert.ReferenceIdeal.Facts₀.bcast_S_S50000x64 (constant (F := Ideal) Cert.ReferenceIdeal.S_ .f32 0x00000000#32)) idx E)
        (broadcastInDim Cert.ReferenceIdeal.S50000x64 ![0, 1] Cert.ReferenceIdeal.Facts₀.bcast_S50000x1_S50000x64_0_1
          (maximumf
            (Host.scatterAdd Cert.ReferenceIdeal.scatter_S50000x1_S800000x1_S800000x1_1_0_0_1
              (broadcastInDim Cert.ReferenceIdeal.S50000x1 ![] Cert.ReferenceIdeal.Facts₀.bcast_S_S50000x1 (constant (F := Ideal) Cert.ReferenceIdeal.S_ .f32 0x00000000#32)) idx
              (broadcastInDim Cert.ReferenceIdeal.S800000x1 ![] Cert.ReferenceIdeal.Facts₀.bcast_S_S800000x1 (constant (F := Ideal) Cert.ReferenceIdeal.S_ .f32 0x3F800000#32)))
            (broadcastInDim Cert.ReferenceIdeal.S50000x1 ![] Cert.ReferenceIdeal.Facts₀.bcast_S_S50000x1 (constant (F := Ideal) Cert.ReferenceIdeal.S_ .f32 0x3F800000#32)))) :=
  by
  rw [sums_eq E idx, counts_eq E idx]

end Cert.ScatterJoin

end
-- ==== Proof.HostSide.lean ====
/-
  The host operations around the two grids, read back. Before the edge grid the program slices the two index columns,
  makes negative positions count from the end, and gathers the source and the target rows of the node features (rounded
  to a narrower format first, which changes nothing at the ideal values); it lays the two edge biases out as one-row
  matrices. Between the grids it lays a column of ones beside the edge messages, accumulates by target position, and
  divides the summed messages by max(count, 1); it lays the two node biases out as one-row matrices. No host operation
  writes an argument, and the first grid writes only its output array.
-/
import proofs.«160655_j618475290959_2_alg».proof.Proof.Gen.KernelIdeal.Frame
import proofs.«160655_j618475290959_2_alg».proof.Proof.Gen.ReferenceIdeal.Read
import proofs.«160655_j618475290959_2_alg».proof.Proof.ScatterJoin
import Idealize.ShloMosaic.Lib.Pipeline.Value
import Idealize.ShloMosaic.Lib.ValueIdx

set_option maxRecDepth 16384

noncomputable section

namespace Cert.KernelIdeal.HostSide

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-! ## Before the edge grid -/

/-- The gathered source rows are the reference's gathered source rows. -/
theorem src_rows (c : Dev nD) :
    (V1 m ρ c main_v11 : S800000x64.Idx → EReal)
      = Cert.ReferenceIdeal.Read.val_main_v10 (F := Ideal) (m ((c : Thread nD τ).loc main_arg0)) (m ((c : Thread nD τ).loc main_arg1)) := by
  show StableHlo.after hostOps0 (W0 m ρ c) (Proc.devRef .tc main_v11) = _
  after_results_simp <;> rfl

/-- The gathered target rows are the reference's gathered target rows. -/
theorem tgt_rows (c : Dev nD) :
    (V1 m ρ c main_v18 : S800000x64.Idx → EReal)
      = Cert.ReferenceIdeal.Read.val_main_v17 (F := Ideal) (m ((c : Thread nD τ).loc main_arg0)) (m ((c : Thread nD τ).loc main_arg1)) := by
  show StableHlo.after hostOps0 (W0 m ρ c) (Proc.devRef .tc main_v18) = _
  after_results_simp <;> rfl

theorem V1_arg2 (c : Dev nD) : V1 m ρ c main_arg2 = m ((c : Thread nD τ).loc main_arg2) := by
  show StableHlo.after hostOps0 (W0 m ρ c) (Proc.devRef .tc main_arg2) = _
  after_results_simp <;> rfl
theorem V1_arg3 (c : Dev nD) : V1 m ρ c main_arg3 = m ((c : Thread nD τ).loc main_arg3) := by
  show StableHlo.after hostOps0 (W0 m ρ c) (Proc.devRef .tc main_arg3) = _
  after_results_simp <;> rfl
theorem V1_arg5 (c : Dev nD) : V1 m ρ c main_arg5 = m ((c : Thread nD τ).loc main_arg5) := by
  show StableHlo.after hostOps0 (W0 m ρ c) (Proc.devRef .tc main_arg5) = _
  after_results_simp <;> rfl

/-- A vector laid out as a one-row matrix reads, at (0, q), the vector's entry q. -/
theorem row_of_vec (b : S64.Idx → EReal) (q : Fin 64) :
    shapeCast S1x64 b shapeCasts_S64_S1x64 (ix2 (0 : Fin 1) q) = b (ix1 q) :=
  shapeCast_apply b shapeCasts_S64_S1x64 (ix2 (0 : Fin 1) q) (ix1 q) (by
    rw [Shape.rowMajor_val_one, Shape.rowMajor_val_two]
    show q.val = 0 * 64 + q.val
    omega)

theorem bias1e (c : Dev nD) (q : Fin 64) :
    V1 m ρ c main_v19 (ix2 (0 : Fin 1) q) = m ((c : Thread nD τ).loc main_arg4) (ix1 q) := by
  have e : (V1 m ρ c main_v19 : S1x64.Idx → EReal) = shapeCast S1x64 (m ((c : Thread nD τ).loc main_arg4)) shapeCasts_S64_S1x64 := by
    show StableHlo.after hostOps0 (W0 m ρ c) (Proc.devRef .tc main_v19) = _
    after_results_simp <;> rfl
  rw [e]; exact row_of_vec _ q

theorem bias2e (c : Dev nD) (q : Fin 64) :
    V1 m ρ c main_v20 (ix2 (0 : Fin 1) q) = m ((c : Thread nD τ).loc main_arg6) (ix1 q) := by
  have e : (V1 m ρ c main_v20 : S1x64.Idx → EReal) = shapeCast S1x64 (m ((c : Thread nD τ).loc main_arg6)) shapeCasts_S64_S1x64 := by
    show StableHlo.after hostOps0 (W0 m ρ c) (Proc.devRef .tc main_v20) = _
    after_results_simp <;> rfl
  rw [e]; exact row_of_vec _ q

/-- The target positions, as the first stretch of host operations leaves them. -/
theorem tgt_pos (c : Dev nD) :
    (W1 m ρ c (Proc.devRef .tc main_v3) : S800000.Idx → BitVec 32)
      = Cert.ReferenceIdeal.Read.val_main_v3 (F := Ideal) (m ((c : Thread nD τ).loc main_arg1)) := by
  show StableHlo.after hostOps0 (W0 m ρ c) (Proc.devRef .tc main_v3) = _
  after_results_simp <;> rfl

/-! ## Between the grids -/

/-- The first program's normalised aggregate of a message array E by target positions idx. -/
def aggK (E : FVec Ideal S800000x64 .f32) (idx : IVec S800000x1 32) : FVec Ideal S50000x64 .f32 :=
  Host.divf
    (extractStridedSlice S50000x64 ![0, 0] (Cert.ScatterJoin.joint E idx) Facts₀.slices_S50000x65_S50000x64_0_0)
    (broadcastInDim S50000x64 ![0, 1] Facts₀.bcast_S50000x1_S50000x64_0_1
      (maximumf
        (extractStridedSlice S50000x1 ![0, 64] (Cert.ScatterJoin.joint E idx) Facts₀.slices_S50000x65_S50000x1_0_64)
        (broadcastInDim S50000x1 ![] Facts₀.bcast_S_S50000x1 (constant (F := Ideal) S_ .f32 0x3F800000#32))))

/-- The aggregate the node grid reads: the normalised aggregate of the edge grid's output by the target positions. -/
theorem agg_input (c : Dev nD) :
    (V3 m ρ c main_v32 : S50000x64.Idx → EReal)
      = aggK (W2 m ρ c (Proc.devRef .tc main_v21))
          (broadcastInDim S800000x1 ![0] Facts₀.bcast_S800000_S800000x1_0 (W2 m ρ c (Proc.devRef .tc main_v3))) := by
  show StableHlo.after hostOps1 (W2 m ρ c) (Proc.devRef .tc main_v32) = _
  after_results_simp <;> rfl

theorem V3_arg0 (c : Dev nD) : V3 m ρ c main_arg0 = m ((c : Thread nD τ).loc main_arg0) := by
  have e : V3 m ρ c main_arg0 = W2 m ρ c (Proc.devRef .tc main_arg0) := by
    show StableHlo.after hostOps1 (W2 m ρ c) (Proc.devRef .tc main_arg0) = _
    after_results_simp <;> rfl
  rw [e, W2_of_ne m ρ c main_arg0 (by decide)]
  show StableHlo.after hostOps0 (W0 m ρ c) (Proc.devRef .tc main_arg0) = _
  after_results_simp <;> rfl
theorem V3_arg7 (c : Dev nD) : V3 m ρ c main_arg7 = m ((c : Thread nD τ).loc main_arg7) := by
  have e : V3 m ρ c main_arg7 = W2 m ρ c (Proc.devRef .tc main_arg7) := by
    show StableHlo.after hostOps1 (W2 m ρ c) (Proc.devRef .tc main_arg7) = _
    after_results_simp <;> rfl
  rw [e, W2_of_ne m ρ c main_arg7 (by decide)]
  show StableHlo.after hostOps0 (W0 m ρ c) (Proc.devRef .tc main_arg7) = _
  after_results_simp <;> rfl
theorem V3_arg9 (c : Dev nD) : V3 m ρ c main_arg9 = m ((c : Thread nD τ).loc main_arg9) := by
  have e : V3 m ρ c main_arg9 = W2 m ρ c (Proc.devRef .tc main_arg9) := by
    show StableHlo.after hostOps1 (W2 m ρ c) (Proc.devRef .tc main_arg9) = _
    after_results_simp <;> rfl
  rw [e, W2_of_ne m ρ c main_arg9 (by decide)]
  show StableHlo.after hostOps0 (W0 m ρ c) (Proc.devRef .tc main_arg9) = _
  after_results_simp <;> rfl

theorem W2_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results_simp <;> rfl
theorem W2_arg10 (c : Dev nD) : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results_simp <;> rfl

theorem bias1n (c : Dev nD) (q : Fin 64) :
    V3 m ρ c main_v33 (ix2 (0 : Fin 1) q) = m ((c : Thread nD τ).loc main_arg8) (ix1 q) := by
  have e : (V3 m ρ c main_v33 : S1x64.Idx → EReal) = shapeCast S1x64 (W2 m ρ c (Proc.devRef .tc main_arg8)) shapeCasts_S64_S1x64 := by
    show StableHlo.after hostOps1 (W2 m ρ c) (Proc.devRef .tc main_v33) = _
    after_results_simp <;> rfl
  rw [e, W2_arg8]; exact row_of_vec _ q

theorem bias2n (c : Dev nD) (q : Fin 64) :
    V3 m ρ c main_v34 (ix2 (0 : Fin 1) q) = m ((c : Thread nD τ).loc main_arg10) (ix1 q) := by
  have e : (V3 m ρ c main_v34 : S1x64.Idx → EReal) = shapeCast S1x64 (W2 m ρ c (Proc.devRef .tc main_arg10)) shapeCasts_S64_S1x64 := by
    show StableHlo.after hostOps1 (W2 m ρ c) (Proc.devRef .tc main_v34) = _
    after_results_simp <;> rfl
  rw [e, W2_arg10]; exact row_of_vec _ q

/-- The target positions are still there between the grids (the edge grid writes only its output). -/
theorem tgt_pos2 (c : Dev nD) :
    (W2 m ρ c (Proc.devRef .tc main_v3) : S800000.Idx → BitVec 32)
      = Cert.ReferenceIdeal.Read.val_main_v3 (F := Ideal) (m ((c : Thread nD τ).loc main_arg1)) := by
  rw [W2_of_ne m ρ c main_v3 (by decide)]
  exact tgt_pos m ρ c

end Cert.KernelIdeal.HostSide

end
-- ==== Proof.RefLayers.lean ====
/-
  The reference program's two perceptrons read at one entry, at the ideal values, over arbitrary input arrays.

  Each result is  add(dot(max(add(dot(join(pieces), W1), row(b1)), 0), W2), row(b2)) : a first layer on the row of
  pieces laid side by side, the rectifier, a second layer.  Read at entry (k, q):
    * a bias row broadcast down the rows is, at (k, c), the bias at c;
    * the scalar zero broadcast over the array is, at every entry, the value of the zero word;
    * a matrix product at (k, c) is the sum over the contracted coordinate;
    * three (two) 64-column pieces laid side by side are, at (k, j), the piece that holds column j read at j less the
      columns before it.
  So entry (k, q) is  out(pre)(q)  with  pre(c) = Σ_j cat(j) · W1(j, c) + b1(c)  the joined first layer of row k.
-/
import proofs.«160655_j618475290959_2_alg».proof.Proof.Gen.ReferenceIdeal
import proofs.«160655_j618475290959_2_alg».proof.Proof.Spec
import proofs.«160655_j618475290959_2_alg».proof.Proof.LibDot
import proofs.«160655_j618475290959_2_alg».proof.Proof.LibConcatCols
import Idealize.ShloMosaic.Lib.ValueIdx
import Idealize.ShloMosaic.Lib.Pipeline.Value
import Idealize.ShloMosaic.PureOps.Ideal.Laws

noncomputable section

namespace Cert.ReferenceIdeal.RefLayers

open Cert.ReferenceIdeal Cert.ReferenceIdeal.Gen
open Idealize.ShloMosaic Idealize.ShloMosaic.ValueIdx
open scoped BigOperators

/-! ## The pieces, for any number of rows -/

section Generic

variable {n : Nat}

/-- A 64-entry bias, made a 1 × 64 row and broadcast down n rows, read at (k, c): the bias at c. -/
theorem bias_apply (h1 : S64.BroadcastsInDim S1x64 (![1] : Fin 1 → Fin S1x64.rank))
    (h2 : S1x64.BroadcastsInDim (⟨2, ![n, 64]⟩ : Shape) (![0, 1] : Fin 2 → Fin 2))
    (b : FVec Ideal S64 .f32) (k : Fin n) (c : Fin 64) :
    broadcastInDim (⟨2, ![n, 64]⟩ : Shape) ![0, 1] h2 (broadcastInDim S1x64 ![1] h1 b) (ix2 k c) = b (ix1 c) := by
  refine (broadcastInDim_apply _ h2 _ (ix2 k c) (ix2 (⟨0, Nat.one_pos⟩ : Fin 1) c) (fun a => match a with
    | ⟨0, _⟩ => by show 0 = if (1 : Nat) = 1 then 0 else k.val; rw [if_pos rfl]
    | ⟨1, _⟩ => by show c.val = if (64 : Nat) = 1 then 0 else c.val; rw [if_neg (by decide)])).trans ?_
  exact broadcastInDim_apply _ h1 b _ (ix1 c) (fun a => match a with
    | ⟨0, _⟩ => by show c.val = if (64 : Nat) = 1 then 0 else c.val; rw [if_neg (by decide)])

/-- The scalar zero broadcast over an n × 64 array, read anywhere: the value of the zero word. -/
theorem zero_apply (h : S_.BroadcastsInDim (⟨2, ![n, 64]⟩ : Shape) (![] : Fin 0 → Fin 2))
    (i : (⟨2, ![n, 64]⟩ : Shape).Idx) :
    broadcastInDim (⟨2, ![n, 64]⟩ : Shape) ![] h (constant (F := Ideal) S_ .f32 0x00000000#32) i = Cert.Mlp.zeroW :=
  (broadcastInDim_apply _ h _ i (fun a => a.elim0) (fun a => a.elim0)).trans rfl

/-- The rectifier and the second layer on any n × 64 array of pre-activations, read at (k, q). -/
theorem layer2_apply (w : DotDims.WF ⟨2, ![n, 64]⟩ ⟨2, ![64, 64]⟩ ⟨2, ![n, 64]⟩ [1] [0] [0] [1] [] [])
    (hz : S_.BroadcastsInDim (⟨2, ![n, 64]⟩ : Shape) (![] : Fin 0 → Fin 2))
    (h1 : S64.BroadcastsInDim S1x64 (![1] : Fin 1 → Fin S1x64.rank))
    (h2 : S1x64.BroadcastsInDim (⟨2, ![n, 64]⟩ : Shape) (![0, 1] : Fin 2 → Fin 2))
    (pre : FVec Ideal ⟨2, ![n, 64]⟩ .f32) (W2 : FVec Ideal S64x64 .f32) (b2 : FVec Ideal S64 .f32)
    (k : Fin n) (q : Fin 64) :
    addf (Host.dotGeneral (Cert.LibDot.dims w) none
          (maximumf pre (broadcastInDim (⟨2, ![n, 64]⟩ : Shape) ![] hz (constant (F := Ideal) S_ .f32 0x00000000#32))) W2)
        (broadcastInDim (⟨2, ![n, 64]⟩ : Shape) ![0, 1] h2 (broadcastInDim S1x64 ![1] h1 b2)) (ix2 k q)
      = Cert.Mlp.out (fun c => pre (ix2 k c)) (fun c q' => W2 (ix2 c q')) (fun q' => b2 (ix1 q')) q := by
  refine (addf_apply _ _ _).trans ?_
  unfold Cert.Mlp.out
  refine congrArg₂ (· + ·) ?_ (bias_apply h1 h2 b2 k q)
  refine (Cert.LibDot.dotGeneral_apply w none _ W2 k q).trans ?_
  refine Finset.sum_congr rfl fun c _ => ?_
  refine congrArg₂ (· * ·) ?_ rfl
  refine (maximumf_apply _ _ _).trans ?_
  exact congrArg (max (pre (ix2 k c))) (zero_apply hz (ix2 k c))

/-- Three 64-column pieces laid side by side, read at (p, j): the piece that holds column j. -/
theorem concat3_cols_apply {α : Type} (x y z : (⟨2, ![n, 64]⟩ : Shape).Idx → α)
    (h : Shape.Concatenates [(⟨2, ![n, 64]⟩ : Shape), ⟨2, ![n, 64]⟩, ⟨2, ![n, 64]⟩] ⟨2, ![n, 192]⟩ 1)
    (p : Fin n) (j : Fin 192) :
    concatenate (⟨2, ![n, 192]⟩ : Shape) 1 [⟨⟨2, ![n, 64]⟩, x⟩, ⟨⟨2, ![n, 64]⟩, y⟩, ⟨⟨2, ![n, 64]⟩, z⟩] h (ix2 p j)
      = if h1 : j.val < 64 then x (ix2 p ⟨j.val, h1⟩)
        else if h2 : j.val < 128 then y (ix2 p ⟨j.val - 64, by omega⟩)
        else z (ix2 p ⟨j.val - 128, by omega⟩) := by
  have hj := j.isLt
  split
  · next h1 =>
    exact concatenate_apply_piece (t := ⟨2, ![n, 192]⟩) (1 : Fin 2)
      [⟨⟨2, ![n, 64]⟩, x⟩, ⟨⟨2, ![n, 64]⟩, y⟩, ⟨⟨2, ![n, 64]⟩, z⟩] h (ix2 p j) 0 (by show 0 < 3; omega)
      ⟨2, ![n, 64]⟩ x rfl rfl 0 rfl (ix2 p ⟨j.val, h1⟩)
      (fun b hb => match b, hb with
        | ⟨0, _⟩, _ => rfl
        | ⟨1, _⟩, hb => absurd rfl hb)
      (by show 0 + j.val = j.val; omega)
  · next h1 =>
    split
    · next h2 =>
      exact concatenate_apply_piece (t := ⟨2, ![n, 192]⟩) (1 : Fin 2)
        [⟨⟨2, ![n, 64]⟩, x⟩, ⟨⟨2, ![n, 64]⟩, y⟩, ⟨⟨2, ![n, 64]⟩, z⟩] h (ix2 p j) 1 (by show 1 < 3; omega)
        ⟨2, ![n, 64]⟩ y rfl rfl 64 rfl
        (ix2 p ⟨j.val - 64, by omega⟩)
        (fun b hb => match b, hb with
          | ⟨0, _⟩, _ => rfl
          | ⟨1, _⟩, hb => absurd rfl hb)
        (by show 64 + (j.val - 64) = j.val; omega)
    · next h2 =>
      exact concatenate_apply_piece (t := ⟨2, ![n, 192]⟩) (1 : Fin 2)
        [⟨⟨2, ![n, 64]⟩, x⟩, ⟨⟨2, ![n, 64]⟩, y⟩, ⟨⟨2, ![n, 64]⟩, z⟩] h (ix2 p j) 2 (by show 2 < 3; omega)
        ⟨2, ![n, 64]⟩ z rfl rfl 128 rfl
        (ix2 p ⟨j.val - 128, by omega⟩)
        (fun b hb => match b, hb with
          | ⟨0, _⟩, _ => rfl
          | ⟨1, _⟩, hb => absurd rfl hb)
        (by show 128 + (j.val - 128) = j.val; omega)

end Generic

/-! ## The edge perceptron -/

/-- The edge perceptron's first layer at (k, c): the joined 192-wide row of row k against column c, plus the bias. -/
theorem edge_pre_apply (xr xc ea : FVec Ideal S800000x64 .f32) (W1 : FVec Ideal S192x64 .f32) (b1 : FVec Ideal S64 .f32)
    (k : Fin 800000) (c : Fin 64) :
    addf (Host.dotGeneral dot_S800000x192_S192x64_S800000x64_1_0_0_1_n_n none
          (concatenate S800000x192 1 [⟨S800000x64, xr⟩, ⟨S800000x64, xc⟩, ⟨S800000x64, ea⟩] concatenates_S800000x64_S800000x64_S800000x64_S800000x192_d1) W1)
        (broadcastInDim S800000x64 ![0, 1] bcast_S1x64_S800000x64_0_1 (broadcastInDim S1x64 ![1] bcast_S64_S1x64_1 b1)) (ix2 k c)
      = Cert.Mlp.pre3Join (fun j => xr (ix2 k j)) (fun j => xc (ix2 k j)) (fun j => ea (ix2 k j))
          (fun a c => W1 (ix2 a c)) (fun c => b1 (ix1 c)) c := by
  refine (addf_apply _ _ _).trans ?_
  unfold Cert.Mlp.pre3Join
  refine congrArg₂ (· + ·) ?_ (bias_apply bcast_S64_S1x64_1 bcast_S1x64_S800000x64_0_1 b1 k c)
  refine (Cert.LibDot.dotGeneral_apply dot_S800000x192_S192x64_S800000x64_1_0_0_1_n_n_wf none _ W1 k c).trans ?_
  refine Finset.sum_congr rfl fun j _ => ?_
  refine congrArg₂ (· * ·) ?_ rfl
  exact concat3_cols_apply xr xc ea concatenates_S800000x64_S800000x64_S800000x64_S800000x192_d1 k j

theorem ref_edge_apply (xr xc ea : FVec Ideal S800000x64 .f32) (W1 : FVec Ideal S192x64 .f32) (b1 : FVec Ideal S64 .f32)
    (W2 : FVec Ideal S64x64 .f32) (b2 : FVec Ideal S64 .f32) (k : Fin 800000) (q : Fin 64) :
    addf (Host.dotGeneral dot_S800000x64_S64x64_S800000x64_1_0_0_1_n_n none
        (maximumf (addf (Host.dotGeneral dot_S800000x192_S192x64_S800000x64_1_0_0_1_n_n none
              (concatenate S800000x192 1 [⟨S800000x64, xr⟩, ⟨S800000x64, xc⟩, ⟨S800000x64, ea⟩] concatenates_S800000x64_S800000x64_S800000x64_S800000x192_d1) W1)
            (broadcastInDim S800000x64 ![0, 1] bcast_S1x64_S800000x64_0_1 (broadcastInDim S1x64 ![1] bcast_S64_S1x64_1 b1)))
          (broadcastInDim S800000x64 ![] bcast_S_S800000x64 (constant S_ .f32 0x00000000#32))) W2)
      (broadcastInDim S800000x64 ![0, 1] bcast_S1x64_S800000x64_0_1 (broadcastInDim S1x64 ![1] bcast_S64_S1x64_1 b2)) (ix2 k q)
    = Cert.Mlp.out (Cert.Mlp.pre3Join (fun j => xr (ix2 k j)) (fun j => xc (ix2 k j)) (fun j => ea (ix2 k j)) (fun a c => W1 (ix2 a c)) (fun c => b1 (ix1 c))) (fun c q' => W2 (ix2 c q')) (fun q' => b2 (ix1 q')) q := by
  refine (layer2_apply dot_S800000x64_S64x64_S800000x64_1_0_0_1_n_n_wf bcast_S_S800000x64 bcast_S64_S1x64_1
    bcast_S1x64_S800000x64_0_1 _ W2 b2 k q).trans ?_
  exact congrArg (fun pre => Cert.Mlp.out pre (fun c q' => W2 (ix2 c q')) (fun q' => b2 (ix1 q')) q)
    (funext fun c => edge_pre_apply xr xc ea W1 b1 k c)

/-! ## The node perceptron -/

/-- The node perceptron's first layer at (n, c): the joined 128-wide row of row n against column c, plus the bias. -/
theorem node_pre_apply (feats aggn : FVec Ideal S50000x64 .f32) (W1 : FVec Ideal S128x64 .f32) (b1 : FVec Ideal S64 .f32)
    (n : Fin 50000) (c : Fin 64) :
    addf (Host.dotGeneral dot_S50000x128_S128x64_S50000x64_1_0_0_1_n_n none
          (concatenate S50000x128 1 [⟨S50000x64, feats⟩, ⟨S50000x64, aggn⟩] concatenates_S50000x64_S50000x64_S50000x128_d1) W1)
        (broadcastInDim S50000x64 ![0, 1] bcast_S1x64_S50000x64_0_1 (broadcastInDim S1x64 ![1] bcast_S64_S1x64_1 b1)) (ix2 n c)
      = Cert.Mlp.pre2Join (fun j => feats (ix2 n j)) (fun j => aggn (ix2 n j))
          (fun a c => W1 (ix2 a c)) (fun c => b1 (ix1 c)) c := by
  refine (addf_apply _ _ _).trans ?_
  unfold Cert.Mlp.pre2Join
  refine congrArg₂ (· + ·) ?_ (bias_apply bcast_S64_S1x64_1 bcast_S1x64_S50000x64_0_1 b1 n c)
  refine (Cert.LibDot.dotGeneral_apply dot_S50000x128_S128x64_S50000x64_1_0_0_1_n_n_wf none _ W1 n c).trans ?_
  refine Finset.sum_congr rfl fun j _ => ?_
  refine congrArg₂ (· * ·) ?_ rfl
  exact Cert.LibConcatCols.concat_cols_apply (a := 64) (b := 64) rfl feats aggn
    concatenates_S50000x64_S50000x64_S50000x128_d1 n j

theorem ref_node_apply (feats aggn : FVec Ideal S50000x64 .f32) (W1 : FVec Ideal S128x64 .f32) (b1 : FVec Ideal S64 .f32)
    (W2 : FVec Ideal S64x64 .f32) (b2 : FVec Ideal S64 .f32) (n : Fin 50000) (q : Fin 64) :
    addf (Host.dotGeneral dot_S50000x64_S64x64_S50000x64_1_0_0_1_n_n none
        (maximumf (addf (Host.dotGeneral dot_S50000x128_S128x64_S50000x64_1_0_0_1_n_n none
              (concatenate S50000x128 1 [⟨S50000x64, feats⟩, ⟨S50000x64, aggn⟩] concatenates_S50000x64_S50000x64_S50000x128_d1) W1)
            (broadcastInDim S50000x64 ![0, 1] bcast_S1x64_S50000x64_0_1 (broadcastInDim S1x64 ![1] bcast_S64_S1x64_1 b1)))
          (broadcastInDim S50000x64 ![] bcast_S_S50000x64 (constant S_ .f32 0x00000000#32))) W2)
      (broadcastInDim S50000x64 ![0, 1] bcast_S1x64_S50000x64_0_1 (broadcastInDim S1x64 ![1] bcast_S64_S1x64_1 b2)) (ix2 n q)
    = Cert.Mlp.out (Cert.Mlp.pre2Join (fun j => feats (ix2 n j)) (fun j => aggn (ix2 n j)) (fun a c => W1 (ix2 a c)) (fun c => b1 (ix1 c))) (fun c q' => W2 (ix2 c q')) (fun q' => b2 (ix1 q')) q := by
  refine (layer2_apply dot_S50000x64_S64x64_S50000x64_1_0_0_1_n_n_wf bcast_S_S50000x64 bcast_S64_S1x64_1
    bcast_S1x64_S50000x64_0_1 _ W2 b2 n q).trans ?_
  exact congrArg (fun pre => Cert.Mlp.out pre (fun c q' => W2 (ix2 c q')) (fun q' => b2 (ix1 q')) q)
    (funext fun c => node_pre_apply feats aggn W1 b1 n c)

end Cert.ReferenceIdeal.RefLayers

end
-- ==== Proof.Bridge.lean ====
/-
  The idealized kernel program's two results as functions of its arguments, and they are the reference's.

  The edge result is the edge perceptron of the gathered source rows, the gathered target rows and the edge
  attributes: the first grid's blocks tile the 800000 rows, each block's body computes the perceptron on its rows, and the
  host operations before the grid gather the rows exactly as the reference does. The reference contracts the three
  pieces as one 192-wide row; the kernel contracts them piece by piece; the sums agree.
  The node result is the node perceptron of the node features and the normalised aggregate of the edge result by
  target position; the kernel's one 65-column accumulation gives the same aggregate as the reference's two, and the
  second grid's blocks tile the 50000 rows.
-/
import proofs.«160655_j618475290959_2_alg».proof.Proof.KernelRun
import proofs.«160655_j618475290959_2_alg».proof.Proof.EdgeRegion
import proofs.«160655_j618475290959_2_alg».proof.Proof.NodeRegion
import proofs.«160655_j618475290959_2_alg».proof.Proof.HostSide
import proofs.«160655_j618475290959_2_alg».proof.Proof.RefLayers
import proofs.«160655_j618475290959_2_alg».proof.Proof.Gen.ReferenceIdeal.Read

set_option maxRecDepth 16384

noncomputable section

namespace Cert.Bridge

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The edge result: the reference's edge stage of the kernel program's arguments. -/
def edgeVal (c : Dev nD) : S800000x64.Idx → EReal :=
  Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The node result: the reference's node stage of the kernel program's arguments. -/
def nodeVal (c : Dev nD) : S50000x64.Idx → EReal :=
  Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- What the first grid leaves in its output array is the reference's edge stage. -/
theorem edge_out (c : Dev nD) : (W2 m ρ c (Proc.devRef .tc main_v21) : S800000x64.Idx → EReal) = edgeVal m c := by
  have h1 : W2 m ρ c (Proc.devRef .tc main_v21) = (dat0 (V1 m ρ) c).arrAt 7 cfg0.N := W2_arr m ρ c 7
  rw [h1, Cert.KernelIdeal.EdgeRegion.edge_array (V1 m ρ) c, Cert.KernelIdeal.HostSide.src_rows m ρ c,
    Cert.KernelIdeal.HostSide.tgt_rows m ρ c, Cert.KernelIdeal.HostSide.V1_arg2 m ρ c, Cert.KernelIdeal.HostSide.V1_arg3 m ρ c,
    Cert.KernelIdeal.HostSide.V1_arg5 m ρ c,
    (funext (Cert.KernelIdeal.HostSide.bias1e m ρ c) : (fun c' => V1 m ρ c main_v19 (ix2 (0 : Fin 1) c')) = fun c' => (m ((c : Thread nD τ).loc main_arg4)) (ix1 c')),
    (funext (Cert.KernelIdeal.HostSide.bias2e m ρ c) : (fun c' => V1 m ρ c main_v20 (ix2 (0 : Fin 1) c')) = fun c' => (m ((c : Thread nD τ).loc main_arg6)) (ix1 c'))]
  funext i
  obtain ⟨k, q, rfl⟩ : ∃ (k : Fin 800000) (q : Fin 64), i = ix2 k q := ⟨i 0, i 1, eq_ix2 i⟩
  rw [Cert.Mlp.edgeArr_apply, ← Cert.Mlp.edgeEntry_join]
  exact (Cert.ReferenceIdeal.RefLayers.ref_edge_apply
    (Cert.ReferenceIdeal.Read.val_main_v10 (F := Ideal) (m ((c : Thread nD τ).loc main_arg0)) (m ((c : Thread nD τ).loc main_arg1)))
    (Cert.ReferenceIdeal.Read.val_main_v17 (F := Ideal) (m ((c : Thread nD τ).loc main_arg0)) (m ((c : Thread nD τ).loc main_arg1)))
    (m ((c : Thread nD τ).loc main_arg2)) (m ((c : Thread nD τ).loc main_arg3)) (m ((c : Thread nD τ).loc main_arg4)) (m ((c : Thread nD τ).loc main_arg5)) (m ((c : Thread nD τ).loc main_arg6)) k q).symm

/-- The edge result buffer still holds it at the end: nothing after the first grid writes it. -/
theorem edge_final (c : Dev nD) : (W4 m ρ c (Proc.devRef .tc main_v21) : S800000x64.Idx → EReal) = edgeVal m c := by
  rw [W4_of_ne m ρ c main_v21 (by decide)]
  have e : W3 m ρ c (Proc.devRef .tc main_v21) = W2 m ρ c (Proc.devRef .tc main_v21) := by
    show StableHlo.after hostOps1 (W2 m ρ c) (Proc.devRef .tc main_v21) = _
    after_results_simp <;> rfl
  rw [e]
  exact edge_out m ρ c

/-- The normalised aggregate the node grid reads is the reference's. -/
theorem agg_eq (c : Dev nD) :
    (V3 m ρ c main_v32 : S50000x64.Idx → EReal)
      = Cert.ReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [Cert.KernelIdeal.HostSide.agg_input m ρ c, edge_out m ρ c, Cert.KernelIdeal.HostSide.tgt_pos2 m ρ c]
  unfold Cert.KernelIdeal.HostSide.aggK edgeVal
  exact Cert.ScatterJoin.aggn_eq _ _

/-- What the second grid leaves in its output array is the reference's node stage. -/
theorem node_out (c : Dev nD) : (W4 m ρ c (Proc.devRef .tc main_v35) : S50000x64.Idx → EReal) = nodeVal m c := by
  have h1 : W4 m ρ c (Proc.devRef .tc main_v35) = (dat1 (V3 m ρ) c).arrAt 6 cfg1.N := W4_arr m ρ c 6
  rw [h1, Cert.KernelIdeal.NodeRegion.node_array (V3 m ρ) c, Cert.KernelIdeal.HostSide.V3_arg0 m ρ c, agg_eq m ρ c,
    Cert.KernelIdeal.HostSide.V3_arg7 m ρ c, Cert.KernelIdeal.HostSide.V3_arg9 m ρ c,
    (funext (Cert.KernelIdeal.HostSide.bias1n m ρ c) : (fun c' => V3 m ρ c main_v33 (ix2 (0 : Fin 1) c')) = fun c' => (m ((c : Thread nD τ).loc main_arg8)) (ix1 c')),
    (funext (Cert.KernelIdeal.HostSide.bias2n m ρ c) : (fun c' => V3 m ρ c main_v34 (ix2 (0 : Fin 1) c')) = fun c' => (m ((c : Thread nD τ).loc main_arg10)) (ix1 c'))]
  funext i
  obtain ⟨n, q, rfl⟩ : ∃ (n : Fin 50000) (q : Fin 64), i = ix2 n q := ⟨i 0, i 1, eq_ix2 i⟩
  rw [Cert.Mlp.nodeArr_apply, ← Cert.Mlp.nodeEntry_join]
  exact (Cert.ReferenceIdeal.RefLayers.ref_node_apply (m ((c : Thread nD τ).loc main_arg0))
    (Cert.ReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (m ((c : Thread nD τ).loc main_arg7)) (m ((c : Thread nD τ).loc main_arg8)) (m ((c : Thread nD τ).loc main_arg9)) (m ((c : Thread nD τ).loc main_arg10)) n q).symm

/-- The idealized kernel program's run: both results at the reference's stages of its arguments, the arguments unchanged. -/
theorem kernel_run : θ_run defs (onTc (τ := τ) (main (F := Ideal))) ⟨m, fun _ => 0, ρ⟩ (fun r => ∀ c : Dev nD,
      r.2.mem ((c.tc : Thread nD τ).loc main_v35) = nodeVal m c
      ∧ r.2.mem ((c.tc : Thread nD τ).loc main_v21) = edgeVal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (node_out m ρ c), (h c).2.1.trans (edge_final m ρ c), (h c).2.2⟩)
    (Cert.KernelIdeal.Run.run_results (F := Ideal) m ρ)

end Cert.Bridge

end
-- ==== Proof.lean ====
/-
  A graph-network layer: an edge perceptron on (source features, target features, edge attributes), the messages summed
  per target node and divided by max(count, 1), and a node perceptron on (node features, aggregate).

  The kernel program runs the two perceptrons as two tiled grids (100 blocks of 8000 edges, 10 blocks of 5000 nodes),
  each body contracting its 64-wide input pieces one by one against 64-row slices of the first weight matrix, and does the
  gathers, the accumulation by target and the division on the host, the messages and a column of ones accumulated
  together. The reference concatenates the pieces and contracts once, and accumulates the messages and the ones
  separately. On the extended reals both compute the same arrays: a sum over 192 (or 128) positions is the sum of its
  64-wide parts, an accumulation acts column by column, and every other operation is the same on both sides. No
  finiteness of the inputs is used.

  The three frames are the generated ones (the reference's is its generated run with the results dropped); the kernel's
  idealization rewrote nothing, so there is nothing to preserve; the value claim is Proof/Bridge.lean's run of the
  idealized kernel program beside the reference's generated run.
-/
import proofs.«160655_j618475290959_2_alg».proof.Defs
import proofs.«160655_j618475290959_2_alg».proof.Proof.Gen.Kernel
import proofs.«160655_j618475290959_2_alg».proof.Proof.Gen.Kernel.Skeleton
import proofs.«160655_j618475290959_2_alg».proof.Proof.Gen.Kernel.Launch
import proofs.«160655_j618475290959_2_alg».proof.Proof.Gen.Kernel.Points
import proofs.«160655_j618475290959_2_alg».proof.Proof.Gen.Kernel.Frame
import proofs.«160655_j618475290959_2_alg».proof.Proof.Gen.KernelIdeal
import proofs.«160655_j618475290959_2_alg».proof.Proof.Gen.KernelIdeal.Skeleton
import proofs.«160655_j618475290959_2_alg».proof.Proof.Gen.KernelIdeal.Launch
import proofs.«160655_j618475290959_2_alg».proof.Proof.Gen.KernelIdeal.Points
import proofs.«160655_j618475290959_2_alg».proof.Proof.Gen.KernelIdeal.Frame
import proofs.«160655_j618475290959_2_alg».proof.Proof.Gen.ReferenceIdeal
import proofs.«160655_j618475290959_2_alg».proof.Proof.Gen.Pre_finite_inputs
import proofs.«160655_j618475290959_2_alg».proof.Proof.Gen.ReferenceIdeal.Run
import proofs.«160655_j618475290959_2_alg».proof.Proof.Gen.ReferenceIdeal.Read
import proofs.«160655_j618475290959_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the node result and the edge result at the reference's stages of the arguments, which the
    two memories agree on. -/
theorem algebraic : Cert.algebraic_KernelIdeal_ReferenceIdeal := by
  intro m ρ m' ρ' _ hagree
  refine ⟨fun c => Cert.Bridge.nodeVal m c, fun c => Cert.Bridge.edgeVal m c, Cert.Bridge.kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v48_eq, a0, a1, a2, a3, a4, a5, a6, a7, a8, a9, a10]
    rfl
  · obtain ⟨a0, a1, a2, a3, a4, a5, a6, a7, a8, a9, a10⟩ := hagree c
    rw [Cert.ReferenceIdeal.Read.val_main_v27_eq, a0, a1, a2, a3, a4, a5, a6]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
